-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S32x4096 : Shape := ⟨2, ![32, 4096]⟩
abbrev S4096x32 : Shape := ⟨2, ![4096, 32]⟩
abbrev S4096 : Shape := ⟨1, ![4096]⟩
abbrev S_ : Shape := ⟨0, ![]⟩

class Facts : Prop where
  reducesTo_S4096x4096_S4096_d1 : S4096x4096.ReducesTo [1] S4096
  h_S_ : 0 < S_.numel
  bcast_S_S4x2048x4096 : S_.BroadcastsInDim S4x2048x4096 (![] : Fin 0 → Fin S4x2048x4096.rank)
  reducesTo_S4x2048x4096_S_d0_1_2 : S4x2048x4096.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S32x4096 : S_.BroadcastsInDim S32x4096 (![] : Fin 0 → Fin S32x4096.rank)
  reducesTo_S32x4096_S_d0_1 : S32x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_
  dot_S4096x32_S32x4096_S4096x4096_1_0_0_1_n_n_wf : DotDims.WF S4096x32 S32x4096 S4096x4096 [1] [0] [0] [1] [] []

variable [Facts]

def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def fn_part1 {F : FTy → Type} [FloatOps F] (main_arg3 : FVec F S4096x32 .f32) (main_arg4 : FVec F S4096 .f32) (main_v4 : FVec F S4096 .f32) (main_v13 : IVec S_ 1) (main_v16 : IVec S32x4096 1) (main_c_4 : IVec S_ 1) : IVec S_ 1 :=
  let main_v17 : IVec S_ 1 := (fun x v => Host.reduce IntOp.andi x v reducesTo_S32x4096_S_d0_1 h_S_) main_v16 main_c_4
  let main_v18 : IVec S_ 1 := andi main_v13 main_v17
  let main_v19 : FVec F S4096x32 .f32 := Host.absf main_arg3
  let main_cst_5 : FVec F S_ .f32 := constant S_ .f32 0x7F800000#32
  let main_v20 : FVec F S4096x32 .f32 := broadcastInDim S4096x32 ![] bcast_S_S4096x32 main_cst_5
  let main_v21 : IVec S4096x32 1 := cmpf .olt main_v19 main_v20
  let main_c_6 : IVec S_ 1 := constantI S_ 1 1#1
  let main_v22 : IVec S_ 1 := (fun x v => Host.reduce IntOp.andi x v reducesTo_S4096x32_S_d0_1 h_S_) main_v21 main_c_6
  let main_v23 : IVec S_ 1 := andi main_v18 main_v22
  let main_v24 : FVec F S4096 .f32 := Host.absf main_arg4
  let main_cst_7 : FVec F S_ .f32 := constant S_ .f32 0x7F800000#32
  let main_v25 : FVec F S4096 .f32 := broadcastInDim S4096 ![] bcast_S_S4096 main_cst_7
  let main_v26 : IVec S4096 1 := cmpf .olt main_v24 main_v25
  let main_c_8 : IVec S_ 1 := constantI S_ 1 1#1
  let main_v27 : IVec S_ 1 := (fun x v => Host.reduce IntOp.andi x v reducesTo_S4096_S_d0 h_S_) main_v26 main_c_8
  let main_v28 : IVec S_ 1 := andi main_v23 main_v27
  let main_cst_9 : FVec F S_ .f32 := constant S_ .f32 0x00000000#32
  let main_v29 : FVec F S4096 .f32 := broadcastInDim S4096 ![] bcast_S_S4096 main_cst_9
  let main_v30 : IVec S4096 1 := cmpf .ogt main_v4 main_v29
  let main_c_10 : IVec S_ 1 := constantI S_ 1 1#1
  let main_v31 : IVec S_ 1 := (fun x v => Host.reduce IntOp.andi x v reducesTo_S4096_S_d0 h_S_) main_v30 main_c_10
  let main_v32 : IVec S_ 1 := andi main_v28 main_v31
  main_v32

def fn {F : FTy → Type} [FloatOps F] (main_arg0 : FVec F S4x2048x4096 .f32) (main_arg1 : FVec F S4096x4096 .f32) (main_arg2 : FVec F S32x4096 .f32) (main_arg3 : FVec F S4096x32 .f32) (main_arg4 : FVec F S4096 .f32) : IVec S_ 1 :=
  let main_v0 : FVec F S4096x4096 .f32 := (fun l r => Host.dotGeneral dot_S4096x32_S32x4096_S4096x4096_1_0_0_1_n_n none l r) main_arg3 main_arg2
  let main_v1 : FVec F S4096x4096 .f32 := addf main_arg1 main_v0
  let main_v2 : FVec F S4096x4096 .f32 := mulf main_v1 main_v1
  let main_cst : FVec F S_ .f32 := constant S_ .f32 0x00000000#32
  let main_v3 : FVec F S4096 .f32 := (fun x v => Host.reduceAdd x v reducesTo_S4096x4096_S4096_d1 h_S_) main_v2 main_cst
  let main_v4 : FVec F S4096 .f32 := Host.sqrt main_v3
  let main_v5 : FVec F S4x2048x4096 .f32 := Host.absf main_arg0
  let main_cst_0 : FVec F S_ .f32 := constant S_ .f32 0x7F800000#32
  let main_v6 : FVec F S4x2048x4096 .f32 := broadcastInDim S4x2048x4096 ![] bcast_S_S4x2048x4096 main_cst_0
  let main_v7 : IVec S4x2048x4096 1 := cmpf .olt main_v5 main_v6
  let main_c : IVec S_ 1 := constantI S_ 1 1#1
  let main_v8 : IVec S_ 1 := (fun x v => Host.reduce IntOp.andi x v reducesTo_S4x2048x4096_S_d0_1_2 h_S_) main_v7 main_c
  let main_v9 : FVec F S4096x4096 .f32 := Host.absf main_arg1
  let main_cst_1 : FVec F S_ .f32 := constant S_ .f32 0x7F800000#32
  let main_v10 : FVec F S4096x4096 .f32 := broadcastInDim S4096x4096 ![] bcast_S_S4096x4096 main_cst_1
  let main_v11 : IVec S4096x4096 1 := cmpf .olt main_v9 main_v10
  let main_c_2 : IVec S_ 1 := constantI S_ 1 1#1
  let main_v12 : IVec S_ 1 := (fun x v => Host.reduce IntOp.andi x v reducesTo_S4096x4096_S_d0_1 h_S_) main_v11 main_c_2
  let main_v13 : IVec S_ 1 := andi main_v8 main_v12
  let main_v14 : FVec F S32x4096 .f32 := Host.absf main_arg2
  let main_cst_3 : FVec F S_ .f32 := constant S_ .f32 0x7F800000#32
  let main_v15 : FVec F S32x4096 .f32 := broadcastInDim S32x4096 ![] bcast_S_S32x4096 main_cst_3
  let main_v16 : IVec S32x4096 1 := cmpf .olt main_v14 main_v15
  let main_c_4 : IVec S_ 1 := constantI S_ 1 1#1
  fn_part1 (F := F) main_arg3 main_arg4 main_v4 main_v13 main_v16 main_c_4
-- ==== Kernel.lean ====
abbrev S4x2048x4096 : Shape := ⟨3, ![4, 2048, 4096]⟩
abbrev S4096x4096 : Shape := ⟨2, ![4096, 4096]⟩
abbrev S32x4096 : Shape := ⟨2, ![32, 4096]⟩
abbrev S4096x32 : Shape := ⟨2, ![4096, 32]⟩
abbrev S4096 : Shape := ⟨1, ![4096]⟩
abbrev S8192x4096 : Shape := ⟨2, ![8192, 4096]⟩
abbrev S_ : Shape := ⟨0, ![]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 18
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S32x4096, .f32⟩
  | .hbm, ⟨3, _⟩ => ⟨S4096x32, .f32⟩
  | .hbm, ⟨4, _⟩ => ⟨S4096, .f32⟩
  | .hbm, ⟨5, _⟩ => ⟨S8192x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S1x4096, .f32⟩
  | .hbm, ⟨14, _⟩ => ⟨S8192x4096, .bf16⟩
  | .hbm, ⟨15, _⟩ => ⟨S4096x4096, .bf16⟩
  | .hbm, ⟨16, _⟩ => ⟨S8192x4096, .f32⟩
  | .hbm, ⟨17, _⟩ => ⟨S4x2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  reducesTo_S4096x4096_S4096_d1 : S4096x4096.ReducesTo [1] S4096
  h_S_ : 0 < S_.numel
  shapeCasts_S4096_S1x4096 : S4096.ShapeCasts S1x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S4096x32_S32x4096_S4096x4096_1_0_0_1_n_n_wf : DotDims.WF S4096x32 S32x4096 S4096x4096 [1] [0] [0] [1] [] []
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v8) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S32x4096 : Shape := ⟨2, ![32, 4096]⟩
abbrev S4096x32 : Shape := ⟨2, ![4096, 32]⟩
abbrev S4096 : Shape := ⟨1, ![4096]⟩
abbrev S4x2048x32 : Shape := ⟨3, ![4, 2048, 32]⟩
abbrev S_ : Shape := ⟨0, ![]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S32x4096, .f32⟩
  | .hbm, ⟨3, _⟩ => ⟨S4096x32, .f32⟩
  | .hbm, ⟨4, _⟩ => ⟨S4096, .f32⟩
  | .hbm, ⟨5, _⟩ => ⟨S4x2048x4096, .f32⟩
  | .hbm, ⟨6, _⟩ => ⟨S4x2048x32, .f32⟩
  | .hbm, ⟨7, _⟩ => ⟨S4x2048x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S32x4096_S4x2048x32_2_1_01_0_n_n_wf : DotDims.WF S4x2048x4096 S32x4096 S4x2048x32 [2] [1] [0, 1] [0] [] []
  dot_S4x2048x32_S4096x32_S4x2048x4096_2_1_01_0_n_n_wf : DotDims.WF S4x2048x32 S4096x32 S4x2048x4096 [2] [1] [0, 1] [0] [] []
  dot_S4096x32_S32x4096_S4096x4096_1_0_0_1_n_n_wf : DotDims.WF S4096x32 S32x4096 S4096x4096 [1] [0] [0] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S32x4096_S4x2048x32_2_1_01_0_n_n : DotDims S4x2048x4096 S32x4096 S4x2048x32 where
  lhsContracting := [2]
  rhsContracting := [1]
  lhsNonContracting := [0, 1]
  rhsNonContracting := [0]
  lhsBatch := []
  rhsBatch := []
  wf := dot_S4x2048x4096_S32x4096_S4x2048x32_2_1_01_0_n_n_wf
def dot_S4x2048x32_S4096x32_S4x2048x4096_2_1_01_0_n_n : DotDims S4x2048x32 S4096x32 S4x2048x4096 where
  lhsContracting := [2]
  rhsContracting := [1]
  lhsNonContracting := [0, 1]
  rhsNonContracting := [0]
  lhsBatch := []
  rhsBatch := []
  wf := dot_S4x2048x32_S4096x32_S4x2048x4096_2_1_01_0_n_n_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf

class Facts : Prop extends Facts₀ where

variable [Facts]
-- ==== Proof.Spec.lean ====
/-
  The common mathematics of the two programs, over the extended reals, stated on plain rows.

  Entry (row, o) of the result depends on one row `xr` of the flattened input (4096 numbers), on row `o` of the
  frozen weight `Wo`, on the whole low-rank factor `A` (32 × 4096), on row `o` of the other factor `Bo` (32 numbers)
  and on the magnitude `mago` of column `o`:

  * the adapted weight's row is `Wo k + ∑ r, Bo r * A r k`;
  * the column norm is the square root of the sum of its squares;
  * the kernel forms the inner product of `xr` with the adapted row and multiplies it by `mago / norm`;
  * the reference forms `xr · Wo` and `∑ r, (xr · A r) * Bo r` separately, adds them, divides by the norm and
    multiplies by `mago`.

  The two agree when every number involved is finite and the norm is positive (module `Algebra`).
-/
import Idealize.ShloMosaic.PureOps.Ideal
import Idealize.ShloMosaic.Lib.ValueIdx

noncomputable section

namespace Cert.Spec

open Idealize.ShloMosaic Idealize.ShloMosaic.ValueIdx

/-- Entry `k` of row `o` of the adapted weight `W + B·A`. -/
def adaptedRow (Wo : Fin 4096 → EReal) (A : Fin 32 → Fin 4096 → EReal) (Bo : Fin 32 → EReal) (k : Fin 4096) : EReal :=
  Wo k + ∑ r : Fin 32, Bo r * A r k

/-- The norm of row `o` of the adapted weight: the square root of the sum of the squares of its entries. -/
def colNorm (Wo : Fin 4096 → EReal) (A : Fin 32 → Fin 4096 → EReal) (Bo : Fin 32 → EReal) : EReal :=
  Ideal.sqrt (∑ k : Fin 4096, adaptedRow Wo A Bo k * adaptedRow Wo A Bo k)

/-- The kernel's entry: the inner product of the input row with the adapted row, times magnitude over norm. -/
def kernelEntry (xr Wo : Fin 4096 → EReal) (A : Fin 32 → Fin 4096 → EReal) (Bo : Fin 32 → EReal) (mago : EReal) : EReal :=
  (∑ k : Fin 4096, xr k * adaptedRow Wo A Bo k) * Ideal.div mago (colNorm Wo A Bo)

/-- The reference's entry: base product plus low-rank product, over the norm, times the magnitude. -/
def referenceEntry (xr Wo : Fin 4096 → EReal) (A : Fin 32 → Fin 4096 → EReal) (Bo : Fin 32 → EReal) (mago : EReal) : EReal :=
  Ideal.div ((∑ k : Fin 4096, xr k * Wo k) + ∑ r : Fin 32, (∑ k : Fin 4096, xr k * A r k) * Bo r) (colNorm Wo A Bo) * mago

/-- The kernel's entry with the inner product taken in two halves of 2048 terms, the first added to zero: the order
    in which the kernel's accumulator receives them. -/
def kernelEntryHalves (xr Wo : Fin 4096 → EReal) (A : Fin 32 → Fin 4096 → EReal) (Bo : Fin 32 → EReal) (mago : EReal) : EReal :=
  ((0 + ∑ k : Fin 2048, xr ⟨k.val, by omega⟩ * adaptedRow Wo A Bo ⟨k.val, by omega⟩)
    + ∑ k : Fin 2048, xr ⟨2048 + k.val, by omega⟩ * adaptedRow Wo A Bo ⟨2048 + k.val, by omega⟩)
    * Ideal.div mago (colNorm Wo A Bo)

/-- The rows an entry of the result reads, cut out of the five argument arrays. -/
abbrev xRow (x : (⟨3, ![4, 2048, 4096]⟩ : Shape).Idx → EReal) (b : Fin 4) (s : Fin 2048) : Fin 4096 → EReal :=
  fun k => x (ix3 b s k)
abbrev wRow (W : (⟨2, ![4096, 4096]⟩ : Shape).Idx → EReal) (o : Fin 4096) : Fin 4096 → EReal := fun k => W (ix2 o k)
abbrev aMat (A : (⟨2, ![32, 4096]⟩ : Shape).Idx → EReal) : Fin 32 → Fin 4096 → EReal := fun r k => A (ix2 r k)
abbrev bRow (B : (⟨2, ![4096, 32]⟩ : Shape).Idx → EReal) (o : Fin 4096) : Fin 32 → EReal := fun r => B (ix2 o r)

/-- The whole result array as the kernel forms it, as a function of the five argument arrays. -/
def result (x : (⟨3, ![4, 2048, 4096]⟩ : Shape).Idx → EReal) (W : (⟨2, ![4096, 4096]⟩ : Shape).Idx → EReal)
    (A : (⟨2, ![32, 4096]⟩ : Shape).Idx → EReal) (B : (⟨2, ![4096, 32]⟩ : Shape).Idx → EReal)
    (mag : (⟨1, ![4096]⟩ : Shape).Idx → EReal) : (⟨3, ![4, 2048, 4096]⟩ : Shape).Idx → EReal :=
  fun j => kernelEntry (xRow x (j 0) (j 1)) (wRow W (j 2)) (aMat A) (bRow B (j 2)) (mag (ix1 (j 2)))

theorem result_ix3 (x : (⟨3, ![4, 2048, 4096]⟩ : Shape).Idx → EReal) (W : (⟨2, ![4096, 4096]⟩ : Shape).Idx → EReal)
    (A : (⟨2, ![32, 4096]⟩ : Shape).Idx → EReal) (B : (⟨2, ![4096, 32]⟩ : Shape).Idx → EReal)
    (mag : (⟨1, ![4096]⟩ : Shape).Idx → EReal) (b : Fin 4) (s : Fin 2048) (o : Fin 4096) :
    result x W A B mag (ix3 b s o) = kernelEntry (xRow x b s) (wRow W o) (aMat A) (bRow B o) (mag (ix1 o)) := rfl

end Cert.Spec

end
-- ==== Proof.Algebra.lean ====
/-
  The algebra behind the agreement of the two programs, over the extended reals.

  Two facts about the row expressions of module `Spec`.

  * A sum of 4096 terms is the sum of its first 2048 terms plus the sum of its last 2048 terms, and adding the first
    half to zero changes nothing; so the inner product taken in two halves is the inner product. No finiteness is
    needed for this.

  * When every number involved is real, both inner-product expressions are real numbers, and over the reals
      ∑ k, x k * (w k + ∑ r, b r * a r k) = (∑ k, x k * w k) + ∑ r, (∑ k, x k * a r k) * b r
    by distributing the product over the sum, exchanging the two summations and commuting the factors. Call the common
    value S. The kernel forms S * (m / c) and the reference (S / c) * m, with c the norm. If c is a positive real, both
    are the real number S * m * c⁻¹; if c is +∞, the quotient by c is 0 on both sides, so both are 0. The norm cannot be
    -∞ because it is positive. The norm is never opened: only its sign is used.
-/
import proofs.«109327_j4243427688520_2_alg».proof.Proof.Spec

noncomputable section

namespace Cert.Algebra

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 4096 indices is the sum over the first 2048 plus the sum over the last 2048. -/
theorem sum_split (f : Fin 4096 → EReal) :
    ∑ k : Fin 4096, f k
      = (∑ k : Fin 2048, f ⟨k.val, by omega⟩) + ∑ k : Fin 2048, f ⟨2048 + k.val, by omega⟩ :=
  Fin.sum_univ_add (a := 2048) (b := 2048) f

/-- The inner product taken in two halves, the first added to zero, is the inner product. -/
theorem halves_eq (xr Wo : Fin 4096 → EReal) (A : Fin 32 → Fin 4096 → EReal) (Bo : Fin 32 → EReal) (mago : EReal) :
    Cert.Spec.kernelEntryHalves xr Wo A Bo mago = Cert.Spec.kernelEntry xr Wo A Bo mago := by
  unfold Cert.Spec.kernelEntryHalves Cert.Spec.kernelEntry
  rw [zero_add, sum_split (fun k => xr k * Cert.Spec.adaptedRow Wo A Bo k)]

/-- Over the reals: distribute the product over the adapted row, exchange the two summations, commute the factors. -/
theorem real_sum_eq (x w : Fin 4096 → ℝ) (a : Fin 32 → Fin 4096 → ℝ) (b : Fin 32 → ℝ) :
    ∑ k, x k * (w k + ∑ r, b r * a r k) = (∑ k, x k * w k) + ∑ r, (∑ k, x k * a r k) * b r := by
  simp only [mul_add, Finset.sum_add_distrib, Finset.mul_sum, Finset.sum_mul]
  congr 1
  rw [Finset.sum_comm]
  exact Finset.sum_congr rfl fun r _ => Finset.sum_congr rfl fun k _ => by ring

/-- With every entry real and the norm positive, the kernel's entry and the reference's entry are the same number. -/
theorem entries_agree (xr Wo : Fin 4096 → EReal) (A : Fin 32 → Fin 4096 → EReal) (Bo : Fin 32 → EReal) (mago : EReal)
    (hx : ∀ k, ∃ a : ℝ, xr k = (a : EReal)) (hW : ∀ k, ∃ a : ℝ, Wo k = (a : EReal))
    (hA : ∀ r k, ∃ a : ℝ, A r k = (a : EReal)) (hB : ∀ r, ∃ a : ℝ, Bo r = (a : EReal))
    (hmag : ∃ a : ℝ, mago = (a : EReal)) (hpos : 0 < Cert.Spec.colNorm Wo A Bo) :
    Cert.Spec.kernelEntry xr Wo A Bo mago = Cert.Spec.referenceEntry xr Wo A Bo mago := by
  choose x hx using hx
  choose w hW using hW
  choose a hA using hA
  choose b hB using hB
  obtain ⟨m, rfl⟩ := hmag
  obtain rfl : xr = fun k => (x k : EReal) := funext hx
  obtain rfl : Wo = fun k => (w k : EReal) := funext hW
  obtain rfl : A = fun r k => (a r k : EReal) := funext fun r => funext (hA r)
  obtain rfl : Bo = fun r => (b r : EReal) := funext hB
  unfold Cert.Spec.kernelEntry Cert.Spec.referenceEntry
  generalize Cert.Spec.colNorm _ _ _ = cn at hpos ⊢
  -- the kernel's inner product is a real number
  have hL : (∑ k : Fin 4096, (x k : EReal)
        * Cert.Spec.adaptedRow (fun k => (w k : EReal)) (fun r k => (a r k : EReal)) (fun r => (b r : EReal)) k)
      = ((∑ k, x k * (w k + ∑ r, b r * a r k) : ℝ) : EReal) := by
    rw [coe_sum]
    refine Finset.sum_congr rfl fun k _ => ?_
    unfold Cert.Spec.adaptedRow
    rw [EReal.coe_mul, EReal.coe_add, coe_sum]
    simp only [EReal.coe_mul]
  -- so is the reference's
  have hR : (∑ k : Fin 4096, (x k : EReal) * (w k : EReal))
        + ∑ r : Fin 32, (∑ k : Fin 4096, (x k : EReal) * (a r k : EReal)) * (b r : EReal)
      = (((∑ k, x k * w k) + ∑ r, (∑ k, x k * a r k) * b r : ℝ) : EReal) := by
    simp only [EReal.coe_add, coe_sum, EReal.coe_mul]
  rw [hL, hR, real_sum_eq]
  generalize (∑ k, x k * w k) + ∑ r, (∑ k, x k * a r k) * b r = S
  induction cn using EReal.rec with
  | bot => exact absurd hpos (by simp)
  | top => simp [Ideal.div]
  | coe c =>
    have hc : c ≠ 0 := by
      have h : (0 : ℝ) < c := by exact_mod_cast hpos
      exact h.ne'
    have hring : S * (m * (1 / c)) = S * (1 / c) * m := by ring
    rw [Ideal.div_coe hc, Ideal.div_coe hc, ← EReal.coe_mul, ← EReal.coe_mul, ← EReal.coe_mul, ← EReal.coe_mul, hring]

end Cert.Algebra

end
-- ==== Proof.PreFacts.lean ====
/-
  The precondition of the claim, read back as plain facts about the five argument arrays.

  The precondition is a conjunction of six one-bit tests. Five of them say, each for one argument array, that every
  entry has absolute value strictly below +∞; over the extended reals the two infinities both have absolute value
  +∞, so every entry of such an array is a real number. The sixth says that every entry of an array of 4096 norms
  is strictly above zero. Entry o of that array is the square root of the sum, along row o, of the squares of the
  adapted weight W + B·A; read entry by entry (a matrix product at (o, k) is the sum over the 32 shared coordinates
  of the products of the factors' entries, a sum along a row started at zero is the sum of the row) it is the norm of
  row o as the common specification defines it, so the sixth test says that all 4096 norms are positive.

  A conjunction of one-bit words is 1 exactly when both words are; an "all" test is a fold of "and" from 1 over every
  entry of a one-bit array, which is 1 only if every entry is 1; an entry of a comparison array is 1 exactly when
  the comparison holds of the two entries compared.
-/
import proofs.«109327_j4243427688520_2_alg».proof.Proof.Spec
import proofs.«109327_j4243427688520_2_alg».proof.Pre_finite_inputs
import Idealize.ShloMosaic.Lib.ValueIdx
import Idealize.ShloMosaic.Lib.ReduceAll
import Idealize.ShloMosaic.PureOps.Ideal.Laws

noncomputable section

namespace Cert.PreFacts

open Idealize.ShloMosaic Idealize.ShloMosaic.ValueIdx Cert.Pre_finite_inputs
open scoped BigOperators

/-! ## One-bit words and the two comparisons -/

/-- The scalar shape has exactly one index. -/
instance : Subsingleton S_.Idx := ⟨fun a b => funext fun d => d.elim0⟩

/-- The single-precision pattern with all exponent bits set and no fraction bit denotes +∞. -/
theorem ofBits_inf_f32 : Ideal.ofBits .f32 0x7F800000#32 = (⊤ : EReal) := by
  simp [Ideal.ofBits, Ideal.ieee]

/-- The one-bit word of a truth value is 1 exactly when the value is true. -/
theorem ofBool_eq_one (b : Bool) : BitVec.ofBool b = 1#1 ↔ b = true := by cases b <;> decide

/-- An extended real whose absolute value max a (−a) is strictly below +∞ is a real number: both −∞ and +∞ have
    absolute value +∞. -/
theorem real_of_abs_lt_top (a : EReal)
    (h : Ideal.cmp .olt (max a (-a)) (Ideal.ofBits .f32 0x7F800000#32) = 1#1) : ∃ r : ℝ, a = (r : EReal) := by
  rw [ofBits_inf_f32] at h
  unfold Ideal.cmp at h
  rw [ofBool_eq_one] at h
  simp only [decide_eq_true_eq] at h
  induction a using EReal.rec with
  | bot => simp at h
  | coe r => exact ⟨r, rfl⟩
  | top => simp at h

/-- An extended real that compares strictly above the zero pattern is positive. -/
theorem pos_of_gt_zero (a : EReal) (h : Ideal.cmp .ogt a (Ideal.ofBits .f32 0x00000000#32) = 1#1) : 0 < a := by
  rw [Ideal.ofBits_zero_f32] at h
  unfold Ideal.cmp at h
  rw [ofBool_eq_one] at h
  simpa only [decide_eq_true_eq] using h

/-- "Every entry has absolute value below +∞", for an array of any shape: if the fold of "and" over the comparison
    array is 1 then every entry of the array is a real number. -/
theorem all_real {s : Shape} {axes : List (Fin s.rank)} (v : FVec Ideal s .f32)
    (bc : S_.BroadcastsInDim s (![] : Fin 0 → Fin s.rank)) (hr : s.ReducesTo axes S_) (hu : 0 < S_.numel)
    (e : Host.reduce IntOp.andi (cmpf .olt (Host.absf v) (broadcastInDim s ![] bc (constant S_ .f32 0x7F800000#32)))
          (constantI S_ 1 1#1) hr hu ix0 = 1#1) (i : s.Idx) : ∃ r : ℝ, v i = (r : EReal) :=
  real_of_abs_lt_top (v i) (Host.reduce_andi_all _ _ hr hu ix0 e i)

/-- "Every entry is above zero", for an array of any shape: if the fold of "and" over the comparison array is 1
    then every entry of the array is positive. -/
theorem all_pos {s : Shape} {axes : List (Fin s.rank)} (v : FVec Ideal s .f32)
    (bc : S_.BroadcastsInDim s (![] : Fin 0 → Fin s.rank)) (hr : s.ReducesTo axes S_) (hu : 0 < S_.numel)
    (e : Host.reduce IntOp.andi (cmpf .ogt v (broadcastInDim s ![] bc (constant S_ .f32 0x00000000#32)))
          (constantI S_ 1 1#1) hr hu ix0 = 1#1) (i : s.Idx) : 0 < v i :=
  pos_of_gt_zero (v i) (Host.reduce_andi_all _ _ hr hu ix0 e i)

variable [Cert.Pre_finite_inputs.Facts]

/-! ## The product of the two factors at an entry -/

theorem lhs_coord0 (i : S4096x4096.Idx) (q : dot_S4096x32_S32x4096_S4096x4096_1_0_0_1_n_n.contr.Idx) :
    (dot_S4096x32_S32x4096_S4096x4096_1_0_0_1_n_n.lhsIdx i q 0).val = (i 0).val := by
  unfold DotDims.lhsIdx
  rw [dif_neg (show ¬(0 : Fin S4096x32.rank) ∈ dot_S4096x32_S32x4096_S4096x4096_1_0_0_1_n_n.lhsBatch from List.not_mem_nil),
    dif_pos (show (0 : Fin S4096x32.rank) ∈ dot_S4096x32_S32x4096_S4096x4096_1_0_0_1_n_n.lhsNonContracting from
      List.mem_singleton.mpr rfl)]
  rfl

theorem lhs_coord1 (i : S4096x4096.Idx) (q : dot_S4096x32_S32x4096_S4096x4096_1_0_0_1_n_n.contr.Idx)
    (h0 : 0 < dot_S4096x32_S32x4096_S4096x4096_1_0_0_1_n_n.contr.rank) :
    (dot_S4096x32_S32x4096_S4096x4096_1_0_0_1_n_n.lhsIdx i q 1).val = (q ⟨0, h0⟩).val :=
  dot_S4096x32_S32x4096_S4096x4096_1_0_0_1_n_n.lhsIdx_val_of_single rfl i q

theorem rhs_coord0 (i : S4096x4096.Idx) (q : dot_S4096x32_S32x4096_S4096x4096_1_0_0_1_n_n.contr.Idx)
    (h0 : 0 < dot_S4096x32_S32x4096_S4096x4096_1_0_0_1_n_n.contr.rank) :
    (dot_S4096x32_S32x4096_S4096x4096_1_0_0_1_n_n.rhsIdx i q 0).val = (q ⟨0, h0⟩).val :=
  dot_S4096x32_S32x4096_S4096x4096_1_0_0_1_n_n.rhsIdx_val_of_single rfl i q

theorem rhs_coord1 (i : S4096x4096.Idx) (q : dot_S4096x32_S32x4096_S4096x4096_1_0_0_1_n_n.contr.Idx) :
    (dot_S4096x32_S32x4096_S4096x4096_1_0_0_1_n_n.rhsIdx i q 1).val = (i 1).val := by
  unfold DotDims.rhsIdx
  rw [dif_neg (show ¬(1 : Fin S32x4096.rank) ∈ dot_S4096x32_S32x4096_S4096x4096_1_0_0_1_n_n.rhsBatch from List.not_mem_nil),
    dif_pos (show (1 : Fin S32x4096.rank) ∈ dot_S4096x32_S32x4096_S4096x4096_1_0_0_1_n_n.rhsNonContracting from
      List.mem_singleton.mpr rfl)]
  rfl

/-- Entry (o, k) of the product of the 4096 × 32 factor with the 32 × 4096 factor is the sum over the 32 shared
    coordinates of the products of their entries (o, r) and (r, k). -/
theorem dot_apply (Bm : FVec Ideal S4096x32 .f32) (Am : FVec Ideal S32x4096 .f32) (o k : Fin 4096) :
    Host.dotGeneral dot_S4096x32_S32x4096_S4096x4096_1_0_0_1_n_n none Bm Am (ix2 o k)
      = ∑ r : Fin 32, Bm (ix2 o r) * Am (ix2 r k) := by
  simp only [Host.dotGeneral]
  rw [Ideal.dotGeneral_apply,
    ← Equiv.sum_comp (ValueIdx.contrEquiv1 dot_S4096x32_S32x4096_S4096x4096_1_0_0_1_n_n 32 rfl rfl).symm]
  refine Finset.sum_congr rfl fun r _ => ?_
  have hr := ValueIdx.contrEquiv1_symm_val dot_S4096x32_S32x4096_S4096x4096_1_0_0_1_n_n 32 rfl rfl r
  have el : dot_S4096x32_S32x4096_S4096x4096_1_0_0_1_n_n.lhsIdx (ix2 o k)
      ((ValueIdx.contrEquiv1 dot_S4096x32_S32x4096_S4096x4096_1_0_0_1_n_n 32 rfl rfl).symm r) = ix2 o r :=
    funext fun a => Fin.ext (by
      match a with
      | ⟨0, _⟩ => exact lhs_coord0 _ _
      | ⟨1, _⟩ => exact (lhs_coord1 _ _ _).trans hr)
  have er : dot_S4096x32_S32x4096_S4096x4096_1_0_0_1_n_n.rhsIdx (ix2 o k)
      ((ValueIdx.contrEquiv1 dot_S4096x32_S32x4096_S4096x4096_1_0_0_1_n_n 32 rfl rfl).symm r) = ix2 r k :=
    funext fun a => Fin.ext (by
      match a with
      | ⟨0, _⟩ => exact (rhs_coord0 _ _ _).trans hr
      | ⟨1, _⟩ => exact rhs_coord1 _ _)
  rw [el, er]

/-! ## The sum along a row -/

/-- Entry o of the sum of a 4096 × 4096 array along its second axis, started from a given initial value, is that
    value plus the sum of the 4096 entries of row o. -/
theorem rowsum_apply (y : FVec Ideal S4096x4096 .f32) (init : FVec Ideal S_ .f32) (o : Fin 4096) :
    Host.reduceAdd y init Facts.reducesTo_S4096x4096_S4096_d1 Facts.h_S_ (ix1 o)
      = init (Shape.Idx.first Facts.h_S_) + ∑ k : Fin 4096, y (ix2 o k) := by
  simp only [Host.reduceAdd, Ideal.hostReduceAdd_def]
  rw [Ideal.hostReduceAdd_single Facts.reducesTo_S4096x4096_S4096_d1 (by decide)]
  refine congrArg (_ + ·) (Finset.sum_congr rfl fun k _ => ?_)
  exact congrArg y (funext fun a => Fin.ext (by match a with | ⟨0, _⟩ => rfl | ⟨1, _⟩ => rfl))

/-! ## The norm of a row of the adapted weight -/

/-- The square root of the row sums of the squared adapted weight, at entry o, is the norm of row o. -/
theorem norm_apply (W : FVec Ideal S4096x4096 .f32) (A : FVec Ideal S32x4096 .f32) (B : FVec Ideal S4096x32 .f32)
    (o : Fin 4096) :
    Host.sqrt (Host.reduceAdd
        (mulf (addf W (Host.dotGeneral dot_S4096x32_S32x4096_S4096x4096_1_0_0_1_n_n none B A))
              (addf W (Host.dotGeneral dot_S4096x32_S32x4096_S4096x4096_1_0_0_1_n_n none B A)))
        (constant S_ .f32 0x00000000#32) Facts.reducesTo_S4096x4096_S4096_d1 Facts.h_S_) (ix1 o)
      = Cert.Spec.colNorm (Cert.Spec.wRow W o) (Cert.Spec.aMat A) (Cert.Spec.bRow B o) := by
  show Ideal.sqrt (Host.reduceAdd (F := Ideal) (φ := .f32) _ _ Facts.reducesTo_S4096x4096_S4096_d1 Facts.h_S_ (ix1 o)) = _
  rw [rowsum_apply, constant_apply, Ideal.ofBits_zero_f32, zero_add]
  unfold Cert.Spec.colNorm Cert.Spec.adaptedRow
  refine congrArg Ideal.sqrt (Finset.sum_congr rfl fun k _ => ?_)
  rw [mulf_apply, addf_apply, dot_apply]

/-! ## The precondition decoded -/

/-- If the precondition's one-bit result is 1 then every entry of the five argument arrays is a real number and
    the norm of every row of the adapted weight is positive. -/
theorem pre_facts
    (x : FVec Ideal S4x2048x4096 .f32) (W : FVec Ideal S4096x4096 .f32) (A : FVec Ideal S32x4096 .f32)
    (B : FVec Ideal S4096x32 .f32) (mag : FVec Ideal S4096 .f32)
    (h : Cert.Pre_finite_inputs.fn (F := Ideal) x W A B mag = (fun _ => 1#1)) :
    (∀ i, ∃ a : ℝ, x i = (a : EReal)) ∧ (∀ i, ∃ a : ℝ, W i = (a : EReal)) ∧ (∀ i, ∃ a : ℝ, A i = (a : EReal))
      ∧ (∀ i, ∃ a : ℝ, B i = (a : EReal)) ∧ (∀ i, ∃ a : ℝ, mag i = (a : EReal))
      ∧ ∀ o : Fin 4096, 0 < Cert.Spec.colNorm (Cert.Spec.wRow W o) (Cert.Spec.aMat A) (Cert.Spec.bRow B o) := by
  have h0 := congrFun h ix0
  dsimp only [fn, fn_part1] at h0
  -- the result is the conjunction of six tests, nested to the left: split it test by test
  obtain ⟨h5, hn⟩ := IntOp.andi_eq_one.1 h0
  obtain ⟨h4, hm⟩ := IntOp.andi_eq_one.1 h5
  obtain ⟨h3, hB⟩ := IntOp.andi_eq_one.1 h4
  obtain ⟨h2, hA⟩ := IntOp.andi_eq_one.1 h3
  obtain ⟨hx, hW⟩ := IntOp.andi_eq_one.1 h2
  refine ⟨all_real x _ _ _ hx, all_real W _ _ _ hW, all_real A _ _ _ hA, all_real B _ _ _ hB,
    all_real mag _ _ _ hm, fun o => ?_⟩
  -- entry o of the array the sixth test is about is the norm of row o
  rw [← norm_apply W A B o]
  exact all_pos _ _ _ _ hn (ix1 o)

end Cert.PreFacts

end
-- ==== Proof.RefVal.lean ====
/-
  The reference's result, entry by entry.

  The reference forms, from the input `x` (4 × 2048 × 4096), the frozen weight `W` (4096 × 4096), the low-rank
  factors `A` (32 × 4096) and `B` (4096 × 32) and the magnitudes `mag` (4096 numbers):

  * the base product, whose entry `(b, s, o)` is `∑ k, x (b, s, k) * W (o, k)`;
  * the low-rank product in two steps: first `∑ k, x (b, s, k) * A (r, k)` for each `r`, then the sum over `r` of
    that number times `B (o, r)`;
  * the adapted weight, whose entry `(o, k)` is `W (o, k) + ∑ r, B (o, r) * A (r, k)`, the sum of the squares of its
    row `o` (started from zero), and the square root of that sum: the norm of row `o`;
  * the sum of the two products, divided by the norm of row `o` and multiplied by `mag o`.

  Each step below reads one of these arrays at an index built from its coordinates, and says which entries of the
  arguments it is made of. Put together, entry `(b, s, o)` of the reference's result is the number
  `Cert.Spec.referenceEntry` computes from row `(b, s)` of `x`, row `o` of `W`, all of `A`, row `o` of `B` and
  `mag o`. Nothing is reordered: every sum and product keeps the order in which the operation forms it; the only law
  used is that zero plus a number is that number (the sum of squares starts from zero).
-/
import proofs.«109327_j4243427688520_2_alg».proof.Proof.Spec
import proofs.«109327_j4243427688520_2_alg».proof.Proof.Gen.ReferenceIdeal.Read
import Idealize.ShloMosaic.Lib.ValueIdx
import Idealize.ShloMosaic.PureOps.Ideal.Laws

noncomputable section

namespace Cert.RefVal

open Cert.ReferenceIdeal Cert.ReferenceIdeal.Gen Cert.ReferenceIdeal.Read Idealize.ShloMosaic Idealize.ShloMosaic.ValueIdx

/-! ## Which entries each contraction reads

A contraction's entry at an index is a sum over `k` of a left entry times a right entry; the two indices are given by
coordinates. At an index built from coordinates they are again indices built from coordinates. -/

/-- The base product at `(b, s, o)` reads `x` at `(b, s, k)`. -/
theorem lidx_v0 (b : Fin 4) (s : Fin 2048) (o k : Fin 4096) : lidx_main_v0 (ix3 b s o) k = ix3 b s k :=
  funext fun a => Fin.ext (by match a with | ⟨0, _⟩ => rfl | ⟨1, _⟩ => rfl | ⟨2, _⟩ => rfl)
/-- The base product at `(b, s, o)` reads `W` at `(o, k)`. -/
theorem ridx_v0 (b : Fin 4) (s : Fin 2048) (o k : Fin 4096) : ridx_main_v0 (ix3 b s o) k = ix2 o k :=
  funext fun a => Fin.ext (by match a with | ⟨0, _⟩ => rfl | ⟨1, _⟩ => rfl)
/-- The first low-rank step at `(b, s, r)` reads `x` at `(b, s, k)`. -/
theorem lidx_v1 (b : Fin 4) (s : Fin 2048) (r : Fin 32) (k : Fin 4096) : lidx_main_v1 (ix3 b s r) k = ix3 b s k :=
  funext fun a => Fin.ext (by match a with | ⟨0, _⟩ => rfl | ⟨1, _⟩ => rfl | ⟨2, _⟩ => rfl)
/-- The first low-rank step at `(b, s, r)` reads `A` at `(r, k)`. -/
theorem ridx_v1 (b : Fin 4) (s : Fin 2048) (r : Fin 32) (k : Fin 4096) : ridx_main_v1 (ix3 b s r) k = ix2 r k :=
  funext fun a => Fin.ext (by match a with | ⟨0, _⟩ => rfl | ⟨1, _⟩ => rfl)
/-- The second low-rank step at `(b, s, o)` reads the first step's result at `(b, s, r)`. -/
theorem lidx_v2 (b : Fin 4) (s : Fin 2048) (o : Fin 4096) (r : Fin 32) : lidx_main_v2 (ix3 b s o) r = ix3 b s r :=
  funext fun a => Fin.ext (by match a with | ⟨0, _⟩ => rfl | ⟨1, _⟩ => rfl | ⟨2, _⟩ => rfl)
/-- The second low-rank step at `(b, s, o)` reads `B` at `(o, r)`. -/
theorem ridx_v2 (b : Fin 4) (s : Fin 2048) (o : Fin 4096) (r : Fin 32) : ridx_main_v2 (ix3 b s o) r = ix2 o r :=
  funext fun a => Fin.ext (by match a with | ⟨0, _⟩ => rfl | ⟨1, _⟩ => rfl)
/-- The product `B · A` at `(o, k)` reads `B` at `(o, r)`. -/
theorem lidx_v3 (o k : Fin 4096) (r : Fin 32) : lidx_main_v3 (ix2 o k) r = ix2 o r :=
  funext fun a => Fin.ext (by match a with | ⟨0, _⟩ => rfl | ⟨1, _⟩ => rfl)
/-- The product `B · A` at `(o, k)` reads `A` at `(r, k)`. -/
theorem ridx_v3 (o k : Fin 4096) (r : Fin 32) : ridx_main_v3 (ix2 o k) r = ix2 r k :=
  funext fun a => Fin.ext (by match a with | ⟨0, _⟩ => rfl | ⟨1, _⟩ => rfl)
/-- The sum along row `o` reads its operand at `(o, k)`. -/
theorem idx_v6 (o k : Fin 4096) : idx_main_v6 (ix1 o) k = ix2 o k :=
  funext fun a => Fin.ext (by match a with | ⟨0, _⟩ => rfl | ⟨1, _⟩ => rfl)
/-- The norm, repeated along the first two axes, is read at `o` from entry `(b, s, o)`. -/
theorem idx_v9_v10 (b : Fin 4) (s : Fin 2048) (o : Fin 4096) : idx_main_v9 (idx_main_v10 (ix3 b s o)) = ix1 o :=
  funext fun a => Fin.ext (by match a with | ⟨0, _⟩ => rfl)
/-- The magnitude, repeated along the first two axes, is read at `o` from entry `(b, s, o)`. -/
theorem idx_v12_v13 (b : Fin 4) (s : Fin 2048) (o : Fin 4096) : idx_main_v12 (idx_main_v13 (ix3 b s o)) = ix1 o :=
  funext fun a => Fin.ext (by match a with | ⟨0, _⟩ => rfl)

/-! ## The stages at an index -/

section
variable (x0 : (⟨S4x2048x4096, .f32⟩ : BufTy).Contents (Elt Ideal)) (x1 : (⟨S4096x4096, .f32⟩ : BufTy).Contents (Elt Ideal))
  (x2 : (⟨S32x4096, .f32⟩ : BufTy).Contents (Elt Ideal)) (x3 : (⟨S4096x32, .f32⟩ : BufTy).Contents (Elt Ideal))
  (x4 : (⟨S4096, .f32⟩ : BufTy).Contents (Elt Ideal))

/-- The base product: `∑ k, x (b, s, k) * W (o, k)`. -/
theorem v0_entry (b : Fin 4) (s : Fin 2048) (o : Fin 4096) :
    val_main_v0 (F := Ideal) x0 x1 (ix3 b s o) = ∑ k : Fin 4096, Cert.Spec.xRow x0 b s k * Cert.Spec.wRow x1 o k := by
  rw [val_main_v0_apply]
  exact Finset.sum_congr rfl fun k _ => by rw [lidx_v0, ridx_v0]

/-- The first low-rank step: `∑ k, x (b, s, k) * A (r, k)`. -/
theorem v1_entry (b : Fin 4) (s : Fin 2048) (r : Fin 32) :
    val_main_v1 (F := Ideal) x0 x2 (ix3 b s r) = ∑ k : Fin 4096, Cert.Spec.xRow x0 b s k * Cert.Spec.aMat x2 r k := by
  rw [val_main_v1_apply]
  exact Finset.sum_congr rfl fun k _ => by rw [lidx_v1, ridx_v1]

/-- The second low-rank step: the sum over `r` of the first step's number times `B (o, r)`. -/
theorem v2_entry (b : Fin 4) (s : Fin 2048) (o : Fin 4096) :
    val_main_v2 (F := Ideal) x0 x2 x3 (ix3 b s o)
      = ∑ r : Fin 32, (∑ k : Fin 4096, Cert.Spec.xRow x0 b s k * Cert.Spec.aMat x2 r k) * Cert.Spec.bRow x3 o r := by
  rw [val_main_v2_apply]
  exact Finset.sum_congr rfl fun r _ => by rw [lidx_v2, ridx_v2, v1_entry]

/-- The adapted weight's entry `(o, k)`: `W (o, k) + ∑ r, B (o, r) * A (r, k)`. -/
theorem v4_entry (o k : Fin 4096) :
    val_main_v4 (F := Ideal) x1 x2 x3 (ix2 o k)
      = Cert.Spec.adaptedRow (Cert.Spec.wRow x1 o) (Cert.Spec.aMat x2) (Cert.Spec.bRow x3 o) k := by
  rw [val_main_v4_apply, val_main_v3_apply, Ideal.addf_def]
  unfold Cert.Spec.adaptedRow
  exact congrArg (_ + ·) (Finset.sum_congr rfl fun r _ => by rw [lidx_v3, ridx_v3])

/-- The norm of row `o` of the adapted weight: the square root of the sum, started from zero, of the squares of the
    row's entries. The leading zero disappears. -/
theorem v7_entry (o : Fin 4096) :
    val_main_v7 (F := Ideal) x1 x2 x3 (ix1 o)
      = Cert.Spec.colNorm (Cert.Spec.wRow x1 o) (Cert.Spec.aMat x2) (Cert.Spec.bRow x3 o) := by
  rw [val_main_v7_apply, val_main_v6_apply, val_main_cst_apply, Ideal.hostUnary_sqrt_def, Ideal.ofBits_def,
    Ideal.ofBits_zero_f32, zero_add]
  unfold Cert.Spec.colNorm
  exact congrArg Ideal.sqrt (Finset.sum_congr rfl fun k _ => by
    rw [val_main_v5_apply, idx_v6, v4_entry, Ideal.mulf_def])

/-- Entry `(b, s, o)` of the reference's result is the reference's entry of `Cert.Spec`, formed from row `(b, s)` of
    the input, row `o` of the frozen weight, the whole first factor, row `o` of the second factor and magnitude `o`. -/
theorem ref_entry (b : Fin 4) (s : Fin 2048) (o : Fin 4096) :
    val_main_v14 (F := Ideal) x0 x1 x2 x3 x4 (ix3 b s o)
      = Cert.Spec.referenceEntry (Cert.Spec.xRow x0 b s) (Cert.Spec.wRow x1 o) (Cert.Spec.aMat x2) (Cert.Spec.bRow x3 o)
          (x4 (ix1 o)) := by
  rw [val_main_v14_apply, val_main_v11_apply, val_main_v13_apply, val_main_v12_apply, val_main_v10_apply,
    val_main_v9_apply, val_main_v8_apply, idx_v9_v10, idx_v12_v13, v7_entry, v0_entry, v2_entry,
    Ideal.mulf_def, Ideal.hostDivf_def, Ideal.addf_def]
  rfl

end

end Cert.RefVal

end
-- ==== Proof.Pieces.lean ====
/-
  What the kernel body leaves behind, case by case, and what the output block holds after the second point of a tile.

  The grid's last axis has two points per output tile. At the first (an even position) the accumulator is cleared
  and receives the product of the point's two input blocks; at the second (the odd position right after it) the
  accumulator receives the product of that point's two input blocks on top, and the output block is the finished
  accumulator scaled column by column. Every statement holds for any interpretation of the floating-point operations.
-/
import proofs.«109327_j4243427688520_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At a reset point the accumulator is first cleared and then receives the product of the two input blocks: it ends
    holding the body's sum over the cleared block. -/
theorem acc_reset (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S1024x2048 .bf16) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2048) hz]

/-- At a closing point the accumulator, found holding `xs0`, receives the product of the two input blocks on top. -/
theorem acc_close (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread,
    View.ld_unit_zero (S := S1024x2048) hz, View.ld_unit_zero (S := S1024x1024) hz]

/-- At a closing point the output block is the finished accumulator scaled column by column by the scale block. -/
theorem out_close (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) :
    out0_B_3 c i arg3 harg3 arg4 harg4 arg5 harg5 arg6 harg6 arg7 harg7 hc0 hc1 x0 x1 x2 xs0 = k0_pay3 (k0_pay2 x0 x1 xs0) x2 := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_words
  rw [View.canon_unit_zero hz, View.readCov_unit_zero (S := S1024x1024) _ hz]
  simp only [View.readAt_eq_ld, harg3.read_unread, harg4.read_unread, harg5.read_unread, harg7.read_unread,
    View.ld_unit_zero (S := S1024x2048) hz, View.ld_unit_zero (S := S1024x1024) hz, View.ld_unit_zero (S := S1x1024) hz]

variable (m : (ℓ : Loc nD τ sig) → Buf (Elt F) ℓ)

/-- The position right before `t` (the first point of the tile whose second point is `t`). -/
def prev (t : Fin cfg0.N) : Fin cfg0.N := ⟨t.val - 1, Nat.lt_of_le_of_lt (Nat.sub_le _ _) t.isLt⟩

/-- After an even position the accumulator holds the product of that point's input blocks over the cleared block. -/
theorem acc_at_even (c : Dev nD) (t : Fin cfg0.N) (h0 : t.val % 2 = 0) :
    (outsAt0 m c t.val t.isLt).2 = k0_pay2 (iblk m c 0 t) (iblk m c 1 t) (k0_pay1 (F := F)) := by
  have h1 : ¬t.val % 2 = 1 := by omega
  rw [outsAt0_A m c t h0 h1]
  dsimp only
  exact acc_reset c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- After an odd position the output block is the scaled sum of the two products: this point's on top of the one
    of the position before, which started from the cleared block. -/
theorem out_at_odd (c : Dev nD) (t : Fin cfg0.N) (h1 : t.val % 2 = 1) :
    (outsAt0 m c t.val t.isLt).1
      = k0_pay3 (k0_pay2 (iblk m c 0 t) (iblk m c 1 t)
          (k0_pay2 (iblk m c 0 (prev t)) (iblk m c 1 (prev t)) (k0_pay1 (F := F)))) (iblk m c 2 t) := by
  have h0 : ¬t.val % 2 = 0 := by omega
  have e : (outsAt0 m c (t.val - 1) (Nat.lt_of_le_of_lt (Nat.sub_le _ _) t.isLt)).2
      = k0_pay2 (iblk m c 0 (prev t)) (iblk m c 1 (prev t)) (k0_pay1 (F := F)) :=
    acc_at_even m c (prev t) (by show (t.val - 1) % 2 = 0; omega)
  rw [outsAt0_B m c t h0 h1]
  dsimp only
  rw [e]
  exact out_close c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t)
    (k0_pay2 (iblk m c 0 (prev t)) (iblk m c 1 (prev t)) (k0_pay1 (F := F)))

end Cert.KernelIdeal.Pieces

end
-- ==== Proof.Payload.lean ====
/-
  The three values the kernel body stores, read at one entry (p, q) of a 1024 × 1024 block, over the extended reals.

  * The first is the block of zeros the accumulator is set to on the first step: every entry is 0.
  * The second is the accumulator after one step: the old entry (p, q) plus the inner product of row p of the first
    1024 × 2048 operand with row q of the second one. Both operands are contracted on their second axis, so the
    second operand enters transposed: entry (p, q) of the product pairs row p with ROW q, term by term over the 2048
    positions of the contraction.
  * The third is the accumulator scaled column by column: entry (p, q) times entry (0, q) of a 1 × 1024 row, which is
    repeated down the 1024 rows.

  Reshapes of a block to its own shape are the identity and are removed first. The product into a block of zeros
  is the plain sum over the contraction index (zero plus the sum); that index set has one axis of size 2048 and is
  replaced by the numbers below 2048, after which the two operand positions at step k are (p, k) and (q, k).
-/
import proofs.«109327_j4243427688520_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Payload

open Cert.KernelIdeal Cert.KernelIdeal.Gen Idealize.ShloMosaic Idealize.ShloMosaic.ValueIdx

/-- The contraction record of the product: both 1024 × 2048 operands are contracted on axis 1; the result's axis 0 is
    the left operand's axis 0 and the result's axis 1 is the right operand's axis 0. -/
abbrev D := dot_S1024x2048_S1024x2048_S1024x1024_1_1_0_0_n_n

/-- Every entry of the block of zeros is 0: a constant block read anywhere is the constant, and the constant's bit
    pattern is that of zero. -/
theorem pay1_at (p q : Fin 1024) : (k0_pay1 (F := Ideal) : S1024x1024.Idx → EReal) (ix2 p q) = 0 := by
  unfold k0_pay1
  refine (congrFun (shapeCast_self _ _) _).trans ?_
  show Ideal.ofBits .f32 0x00000000#32 = 0
  exact Ideal.ofBits_zero_f32

/-- The left operand is read in the result's row: axis 0 of the left position is axis 0 of the result position. -/
theorem lhs_0 (i : S1024x1024.Idx) (c : D.contr.Idx) : (D.lhsIdx i c 0).val = (i 0).val := by
  unfold DotDims.lhsIdx
  rw [dif_neg (show ¬(0 : Fin S1024x2048.rank) ∈ D.lhsBatch by decide), dif_pos (show (0 : Fin S1024x2048.rank) ∈ D.lhsNonContracting by decide)]
  rfl

/-- Axis 1 of the left position is the contraction index. -/
theorem lhs_1 (i : S1024x1024.Idx) (c : D.contr.Idx) : (D.lhsIdx i c 1).val = (c ⟨0, by decide⟩).val :=
  D.lhsIdx_val_of_single rfl i c

/-- The right operand is read in the ROW named by the result's column: axis 0 of the right position is axis 1 of the
    result position. -/
theorem rhs_0 (i : S1024x1024.Idx) (c : D.contr.Idx) : (D.rhsIdx i c 0).val = (i 1).val := by
  unfold DotDims.rhsIdx
  rw [dif_neg (show ¬(0 : Fin S1024x2048.rank) ∈ D.rhsBatch by decide), dif_pos (show (0 : Fin S1024x2048.rank) ∈ D.rhsNonContracting by decide)]
  rfl

/-- Axis 1 of the right position is the contraction index. -/
theorem rhs_1 (i : S1024x1024.Idx) (c : D.contr.Idx) : (D.rhsIdx i c 1).val = (c ⟨0, by decide⟩).val :=
  D.rhsIdx_val_of_single rfl i c

/-- The product into a block of zeros, at entry (p, q): the sum over k below 2048 of entry (p, k) of the left operand
    times entry (q, k) of the right one. The sum over the one-axis contraction index set is carried to the sum over
    the numbers below 2048 along the evident bijection, and the operand positions are then compared axis by axis. -/
theorem matmul_at (u v : FVec Ideal S1024x2048 .bf16) (p q : Fin 1024) :
    matmul (F := Ideal) D none u v (constant S1024x1024 .f32 0x00000000#32) (ix2 p q) = ∑ k : Fin 2048, u (ix2 p k) * v (ix2 q k) := by
  refine (Ideal.matmul_constant_zero_apply D none u v (ix2 p q)).trans ?_
  rw [← Equiv.sum_comp (ValueIdx.contrEquiv1 D 2048 rfl rfl).symm]
  refine Finset.sum_congr rfl fun k _ => ?_
  have hk := ValueIdx.contrEquiv1_symm_val D 2048 rfl rfl k
  have el : D.lhsIdx (ix2 p q) ((ValueIdx.contrEquiv1 D 2048 rfl rfl).symm k) = ix2 p k := funext fun a => Fin.ext (by
    match a with
    | ⟨0, _⟩ => exact lhs_0 _ _
    | ⟨1, _⟩ => exact (lhs_1 _ _).trans hk)
  have er : D.rhsIdx (ix2 p q) ((ValueIdx.contrEquiv1 D 2048 rfl rfl).symm k) = ix2 q k := funext fun a => Fin.ext (by
    match a with
    | ⟨0, _⟩ => exact rhs_0 _ _
    | ⟨1, _⟩ => exact (rhs_1 _ _).trans hk)
  rw [el, er]

/-- The accumulator after one step, at entry (p, q): the old entry plus the inner product of row p of the first operand
    with row q of the second. The sum of two blocks is read entry by entry; the reshapes to the same shape drop out. -/
theorem pay2_at (x0 x1 : Vec Ideal S1024x2048 .bf16) (acc : Vec Ideal S1024x1024 .f32) (p q : Fin 1024) :
    (k0_pay2 (F := Ideal) x0 x1 acc : S1024x1024.Idx → EReal) (ix2 p q) = acc (ix2 p q) + ∑ k : Fin 2048, x0 (ix2 p k) * x1 (ix2 q k) := by
  unfold k0_pay2
  refine (congrFun (shapeCast_self _ _) _).trans ?_
  show acc (ix2 p q) + _ = _
  refine congrArg (acc (ix2 p q) + ·) ?_
  exact (congrArg₂ (fun u v => matmul (F := Ideal) D none u v (constant S1024x1024 .f32 0x00000000#32) (ix2 p q))
    (shapeCast_self x0 _) (shapeCast_self x1 _)).trans (matmul_at x0 x1 p q)

/-- The scaled block at entry (p, q): entry (p, q) times entry (0, q) of the 1 × 1024 row. The product of two blocks is
    read entry by entry; a row repeated down 1024 rows is read, at (p, q), in its only row (the axis of size one reads
    position 0) and in column q (the axis of size 1024 reads the same position). -/
theorem pay3_at (a : Vec Ideal S1024x1024 .f32) (sc : Vec Ideal S1x1024 .f32) (p q : Fin 1024) :
    (k0_pay3 (F := Ideal) a sc : S1024x1024.Idx → EReal) (ix2 p q) = a (ix2 p q) * sc (ix2 (0 : Fin 1) q) := by
  unfold k0_pay3
  show a (ix2 p q) * _ = _
  refine congrArg (a (ix2 p q) * ·) ?_
  refine (broadcastTo_apply _ broadcasts_S1x1024_S1024x1024 (ix2 p q) (ix2 (0 : Fin 1) q) (fun b => match b with
    | ⟨0, _⟩ => by show 0 = if (1 : Nat) = 1 then 0 else p.val; rw [if_pos rfl]
    | ⟨1, _⟩ => by show q.val = if (1024 : Nat) = 1 then 0 else q.val; rw [if_neg (by decide)])).trans ?_
  exact congrFun (shapeCast_self sc _) _

end Cert.Payload

end
-- ==== Proof.Tile.lean ====
/-
  From the output tiles to the output array, at the exact instance.

  The grid is 8 × 4 × 2: position `t` has coordinates (t / 8, t / 2 % 4, t % 2). The output window's tile (t / 8, t / 2 % 4)
  of 1024 × 1024 entries is written back at the odd positions, that is after the second of the two points that share
  it. What it then holds at (p, q) is, by the body's arithmetic over the two points,

      ((0 + ∑_{k < 2048} X[row, k] · Wt[o, k]) + ∑_{k < 2048} X[row, 2048 + k] · Wt[o, 2048 + k]) · Sc[0, o]

  with row = (t / 8)·1024 + p and o = (t / 2 % 4)·1024 + q, where X, Wt and Sc are the three arrays the region reads:
  each input block is the array read at the block index times the block size plus the coordinate inside the block.
  The 32 tiles cover the array, so the array ends holding that function of X, Wt and Sc everywhere.
-/
import proofs.«109327_j4243427688520_2_alg».proof.Proof.Pieces
import proofs.«109327_j4243427688520_2_alg».proof.Proof.Payload
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen Cert.KernelIdeal.Pieces

/-- The printed index maps over the 8 × 4 × 2 grid, position `t` having coordinates (t / 8, t / 2 % 4, t % 2): the input
    rows move with the first coordinate, the weight rows and the scale columns with the second, the contracted
    columns with the third; the output tile is (first, second). -/
theorem idx_facts : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = 0 ∧ win0_2.index t (1 : Fin 2) = t.val / 2 % 4
    ∧ win0_3.index t (0 : Fin 2) = t.val / 8 ∧ win0_3.index t (1 : Fin 2) = t.val / 2 % 4 :=
  (by decide +kernel : ∀ t : Fin grid0.N, _)

/-- One entry of the array the output ends holding, from the three arrays the region reads: the inner product of row
    `row` of the first with row `o` of the second, taken as the first 2048 terms added to zero and then the last 2048
    terms on top, times entry `o` of the scale row. -/
def entry (X : (⟨S8192x4096, .bf16⟩ : BufTy).Contents (Elt Ideal)) (Wt : (⟨S4096x4096, .bf16⟩ : BufTy).Contents (Elt Ideal))
    (Sc : (⟨S1x4096, .f32⟩ : BufTy).Contents (Elt Ideal)) (row : Fin 8192) (o : Fin 4096) : EReal :=
  ((0 + ∑ k : Fin 2048, X (ix2 row (⟨k.val, by omega⟩ : Fin 4096)) * Wt (ix2 o (⟨k.val, by omega⟩ : Fin 4096)))
    + ∑ k : Fin 2048, X (ix2 row (⟨2048 + k.val, by omega⟩ : Fin 4096)) * Wt (ix2 o (⟨2048 + k.val, by omega⟩ : Fin 4096)))
    * Sc (ix2 (0 : Fin 1) o)

/-- The whole array. -/
def tileArray (X : (⟨S8192x4096, .bf16⟩ : BufTy).Contents (Elt Ideal)) (Wt : (⟨S4096x4096, .bf16⟩ : BufTy).Contents (Elt Ideal))
    (Sc : (⟨S1x4096, .f32⟩ : BufTy).Contents (Elt Ideal)) : (⟨S8192x4096, .f32⟩ : BufTy).Contents (Elt Ideal) :=
  fun i => entry X Wt Sc (i 0) (i 1)

theorem tileArray_ix2 (X : (⟨S8192x4096, .bf16⟩ : BufTy).Contents (Elt Ideal)) (Wt : (⟨S4096x4096, .bf16⟩ : BufTy).Contents (Elt Ideal))
    (Sc : (⟨S1x4096, .f32⟩ : BufTy).Contents (Elt Ideal)) (row : Fin 8192) (o : Fin 4096) :
    tileArray X Wt Sc (ix2 row o) = entry X Wt Sc row o := rfl

/-- The body's arithmetic over the two points of a tile, at one entry: with the four input blocks and the scale block
    holding the stated rows, the output entry is `entry`. -/
theorem tile_value (x0t x1t x0p x1p : Vec Ideal S1024x2048 .bf16) (x2t : Vec Ideal S1x1024 .f32)
    (X : (⟨S8192x4096, .bf16⟩ : BufTy).Contents (Elt Ideal)) (Wt : (⟨S4096x4096, .bf16⟩ : BufTy).Contents (Elt Ideal))
    (Sc : (⟨S1x4096, .f32⟩ : BufTy).Contents (Elt Ideal)) (row : Fin 8192) (o : Fin 4096) (p q : Fin 1024)
    (hx0p : ∀ k : Fin 2048, x0p (ix2 p k) = X (ix2 row (⟨k.val, by omega⟩ : Fin 4096)))
    (hx0t : ∀ k : Fin 2048, x0t (ix2 p k) = X (ix2 row (⟨2048 + k.val, by omega⟩ : Fin 4096)))
    (hx1p : ∀ k : Fin 2048, x1p (ix2 q k) = Wt (ix2 o (⟨k.val, by omega⟩ : Fin 4096)))
    (hx1t : ∀ k : Fin 2048, x1t (ix2 q k) = Wt (ix2 o (⟨2048 + k.val, by omega⟩ : Fin 4096)))
    (hx2 : x2t (ix2 (0 : Fin 1) q) = Sc (ix2 (0 : Fin 1) o)) :
    (k0_pay3 (F := Ideal) (k0_pay2 x0t x1t (k0_pay2 x0p x1p (k0_pay1 (F := Ideal)))) x2t : S1024x1024.Idx → EReal) (ix2 p q)
      = entry X Wt Sc row o := by
  rw [Cert.Payload.pay3_at, Cert.Payload.pay2_at, Cert.Payload.pay2_at, Cert.Payload.pay1_at, hx2]
  unfold entry
  simp only [hx0p, hx0t, hx1p, hx1t]

/-- An entry of the block of the first input at position `t` is the array's entry at row (t / 8)·1024 + p, column
    (t % 2)·2048 + k. -/
theorem read_x (A : (⟨S8192x4096, .bf16⟩ : BufTy).Contents (Elt Ideal)) (t : Fin cfg0.N) (p : Fin 1024) (k : Fin 2048)
    (row : Fin 8192) (col : Fin 4096) (hr : row.val = t.val / 8 * 1024 + p.val) (hc : col.val = t.val % 2 * 2048 + k.val) :
    (((cfg0.win 0).blk t).view.read (Elt Ideal) A : Vec Ideal S1024x2048 .bf16) (ix2 p k) = A (ix2 row col) := by
  obtain ⟨e0, e1, -⟩ := idx_facts t
  show A (((cfg0.win 0).blk t).view.emb (ix2 p k)) = A (ix2 row col)
  refine congrArg A (funext fun a => Fin.ext ?_)
  match a with
  | ⟨0, _⟩ => show win0_0.index t (0 : Fin 2) * 1024 + 1 * p.val = row.val; omega
  | ⟨1, _⟩ => show win0_0.index t (1 : Fin 2) * 2048 + 1 * k.val = col.val; omega

/-- An entry of the block of the second input at position `t`: row (t / 2 % 4)·1024 + q, column (t % 2)·2048 + k. -/
theorem read_w (A : (⟨S4096x4096, .bf16⟩ : BufTy).Contents (Elt Ideal)) (t : Fin cfg0.N) (q : Fin 1024) (k : Fin 2048)
    (o : Fin 4096) (col : Fin 4096) (ho : o.val = t.val / 2 % 4 * 1024 + q.val) (hc : col.val = t.val % 2 * 2048 + k.val) :
    (((cfg0.win 1).blk t).view.read (Elt Ideal) A : Vec Ideal S1024x2048 .bf16) (ix2 q k) = A (ix2 o col) := by
  obtain ⟨-, -, e2, e3, -⟩ := idx_facts t
  show A (((cfg0.win 1).blk t).view.emb (ix2 q k)) = A (ix2 o col)
  refine congrArg A (funext fun a => Fin.ext ?_)
  match a with
  | ⟨0, _⟩ => show win0_1.index t (0 : Fin 2) * 1024 + 1 * q.val = o.val; omega
  | ⟨1, _⟩ => show win0_1.index t (1 : Fin 2) * 2048 + 1 * k.val = col.val; omega

/-- An entry of the scale block at position `t`: column (t / 2 % 4)·1024 + q of the one row. -/
theorem read_s (A : (⟨S1x4096, .f32⟩ : BufTy).Contents (Elt Ideal)) (t : Fin cfg0.N) (q : Fin 1024)
    (o : Fin 4096) (ho : o.val = t.val / 2 % 4 * 1024 + q.val) :
    (((cfg0.win 2).blk t).view.read (Elt Ideal) A : Vec Ideal S1x1024 .f32) (ix2 (0 : Fin 1) q) = A (ix2 (0 : Fin 1) o) := by
  obtain ⟨-, -, -, -, e4, e5, -⟩ := idx_facts t
  show A (((cfg0.win 2).blk t).view.emb (ix2 (0 : Fin 1) q)) = A (ix2 (0 : Fin 1) o)
  refine congrArg A (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

variable (m : (ℓ : Loc nD τ sig) → Buf (Elt Ideal) ℓ)

/-- WHAT THE SECOND POINT OF A TILE LEAVES, over any three arrays: the body's arithmetic over the blocks of the tile's
    two points, read at any entry of the output block, is the array of `entry` read through the output's block. -/
theorem tile_read (X : (⟨S8192x4096, .bf16⟩ : BufTy).Contents (Elt Ideal)) (Wt : (⟨S4096x4096, .bf16⟩ : BufTy).Contents (Elt Ideal))
    (Sc : (⟨S1x4096, .f32⟩ : BufTy).Contents (Elt Ideal)) (t : Fin cfg0.N) (h1 : t.val % 2 = 1)
    (j : ((cfg0.win 3).xblock (grid0.coords t)).Idx) :
    (k0_pay3 (F := Ideal)
        (k0_pay2 (((cfg0.win 0).blk t).view.read (Elt Ideal) X) (((cfg0.win 1).blk t).view.read (Elt Ideal) Wt)
          (k0_pay2 (((cfg0.win 0).blk (prev t)).view.read (Elt Ideal) X) (((cfg0.win 1).blk (prev t)).view.read (Elt Ideal) Wt)
            (k0_pay1 (F := Ideal))))
        (((cfg0.win 2).blk t).view.read (Elt Ideal) Sc) : S1024x1024.Idx → EReal) j
      = ((cfg0.win 3).blk t).view.read (Elt Ideal) (tileArray X Wt Sc) j := by
  have hN : t.val < 64 := lt_of_lt_of_eq t.isLt (show cfg0.N = 64 from N_0)
  obtain ⟨-, -, -, -, -, -, e6, e7⟩ := idx_facts t
  obtain ⟨p, q, rfl⟩ : ∃ (p q : Fin 1024), j = ix2 p q := ⟨j 0, j 1, eq_ix2 j⟩
  have hemb : ((cfg0.win 3).blk t).view.emb (ix2 p q)
      = ix2 (⟨t.val / 8 * 1024 + p.val, by omega⟩ : Fin 8192) (⟨t.val / 2 % 4 * 1024 + q.val, by omega⟩ : Fin 4096) := by
    funext a; apply Fin.ext
    match a with
    | ⟨0, _⟩ => show win0_3.index t (0 : Fin 2) * 1024 + 1 * p.val = t.val / 8 * 1024 + p.val; omega
    | ⟨1, _⟩ => show win0_3.index t (1 : Fin 2) * 1024 + 1 * q.val = t.val / 2 % 4 * 1024 + q.val; omega
  show _ = tileArray X Wt Sc (((cfg0.win 3).blk t).view.emb (ix2 p q))
  rw [hemb, tileArray_ix2]
  have hpv : (prev t).val = t.val - 1 := rfl
  exact tile_value _ _ _ _ _ X Wt Sc _ _ p q
    (fun k => read_x X (prev t) p k _ _ (by show t.val / 8 * 1024 + p.val = (prev t).val / 8 * 1024 + p.val; omega)
      (by show k.val = (prev t).val % 2 * 2048 + k.val; omega))
    (fun k => read_x X t p k _ _ rfl (by show 2048 + k.val = t.val % 2 * 2048 + k.val; omega))
    (fun k => read_w Wt (prev t) q k _ _ (by show t.val / 2 % 4 * 1024 + q.val = (prev t).val / 2 % 4 * 1024 + q.val; omega)
      (by show k.val = (prev t).val % 2 * 2048 + k.val; omega))
    (fun k => read_w Wt t q k _ _ rfl (by show 2048 + k.val = t.val % 2 * 2048 + k.val; omega))
    (read_s Sc t q _ rfl)

/-- WHAT POSITION `t` WRITES BACK (the odd positions write back): the block of `tileArray` of the three arrays as the
    region finds them. -/
theorem flushed_eq (c : Dev nD) (t : Fin cfg0.N) (hf : (cfg0.win 3).flush t = true) :
    (dats m 0 c).flushed 3 t = ((cfg0.win 3).blk t).view.read (Elt Ideal)
      (tileArray (V m c (Pipeline.arrRef spec0 0)) (V m c (Pipeline.arrRef spec0 1)) (V m c (Pipeline.arrRef spec0 2))) := by
  have h1 : t.val % 2 = 1 := (flush0_3 t).mp hf
  show (cfg0.win 3).cut (grid0.coords t) ((dats m 0 c).after 3 t) = _
  rw [after0_3, out_at_odd m c t h1]
  funext j
  unfold iblk
  exact tile_read _ _ _ t h1 j

/-- An index of the output array is in position `t`'s block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v10).slice (win0_3.rect t)).set ↔ _
  rw [View.set_slice_whole, Rect.mem_set_unit]
  exact Iff.rfl

/-- Every index of the output array lies in the block of a position that writes back: row tile i₀ / 1024, column tile
    i₁ / 1024, at the second point of that tile. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  have ht : 8 * ((i 0).val / 1024) + 2 * ((i 1).val / 1024) + 1 < cfg0.N := by omega
  obtain ⟨-, -, -, -, -, -, e6, e7⟩ := idx_facts ⟨8 * ((i 0).val / 1024) + 2 * ((i 1).val / 1024) + 1, ht⟩
  refine ⟨⟨8 * ((i 0).val / 1024) + 2 * ((i 1).val / 1024) + 1, ht⟩, (flush0_3 _).mpr (by show (8 * ((i 0).val / 1024) + 2 * ((i 1).val / 1024) + 1) % 2 = 1; omega), ?_⟩
  rw [mem_blk]
  intro a
  match a with
  | ⟨0, _⟩ =>
    show win0_3.index _ (0 : Fin 2) * 1024 ≤ (i 0).val ∧ (i 0).val < win0_3.index _ (0 : Fin 2) * 1024 + 1024
    rw [e6]; dsimp only; omega
  | ⟨1, _⟩ =>
    show win0_3.index _ (1 : Fin 2) * 1024 ≤ (i 1).val ∧ (i 1).val < win0_3.index _ (1 : Fin 2) * 1024 + 1024
    rw [e7]; dsimp only; omega

/-- THE OUTPUT ARRAY after the region: `tileArray` of the three arrays as the region finds them. -/
theorem final (c : Dev nD) : (dats m 0 c).arrAt 3 cfg0.N
    = tileArray (V m c (Pipeline.arrRef spec0 0)) (V m c (Pipeline.arrRef spec0 1)) (V m c (Pipeline.arrRef spec0 2)) :=
  (dats m 0 c).arrAt_eq_of_cover 3 _ (flushed_eq m c) cover

end Cert.KernelIdeal.Tile

end
-- ==== Proof.HostPrefix.lean ====
/-
  What the three arrays the kernel region reads hold when the region is entered, as functions of the five
  argument arrays `x` (4 × 2048 × 4096), `W` (4096 × 4096), `A` (32 × 4096), `B` (4096 × 32) and `mag` (4096).

  Before the region the program forms, on whole arrays:

  * the input flattened to 8192 × 4096: row `row` of the flat array is row `row % 2048` of slab `row / 2048`,
    because both indices have the same row-major position `row * 4096 + k`;
  * the adapted weight `W + B·A`: entry `(o, k)` is `W o k + ∑ r, B o r * A r k`, the product being a contraction
    over the 32 values of the shared axis;
  * for each row `o` of the adapted weight its norm, the square root of `0 + ∑ k, (entry (o, k))²`, and then
    `mag o` divided by that norm, laid out as one row of 4096 numbers.

  The conversions to the narrower float format change nothing over the extended reals. Each fact is first proved
  for arbitrary arrays of the literal shapes and then read off the program's operations.
-/
import proofs.«109327_j4243427688520_2_alg».proof.Proof.Spec
import proofs.«109327_j4243427688520_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.HostPrefix

open Cert.KernelIdeal Cert.KernelIdeal.Gen Idealize.ShloMosaic Idealize.ShloMosaic.TcCoe Idealize.SL.Sem
open Idealize.ShloMosaic.ValueIdx Idealize.ShloMosaic.StableHlo

/-! ## The flattening of the input -/

/-- A 4 × 2048 × 4096 array recast as 8192 × 4096 reads, at `(row, k)`, the operand at
    `(row / 2048, row % 2048, k)`: the two indices have the same row-major position, since
    `((row / 2048) * 2048 + row % 2048) * 4096 + k = row * 4096 + k`. -/
theorem flatten_at {α : Type} (x : S4x2048x4096.Idx → α) (h : S4x2048x4096.ShapeCasts S8192x4096)
    (row : Fin 8192) (k : Fin 4096) :
    shapeCast S8192x4096 x h (ix2 row k) = x (ix3 ⟨row.val / 2048, by omega⟩ ⟨row.val % 2048, by omega⟩ k) :=
  shapeCast_apply x h _ _ (by
    rw [Shape.rowMajor_val_three, Shape.rowMajor_val_two]
    show (row.val / 2048 * 2048 + row.val % 2048) * 4096 + k.val = row.val * 4096 + k.val
    have := Nat.div_add_mod row.val 2048
    omega)

/-! ## The low-rank product `B·A` -/

/-- The dimension record of the product of a 4096 × 32 array with a 32 × 4096 array: axis 1 of the left operand
    is contracted with axis 0 of the right one. -/
local notation "dotBA" => dot_S4096x32_S32x4096_S4096x4096_1_0_0_1_n_n

/-- The left operand's row coordinate is the result's row coordinate. -/
theorem dot_lhs0 (i : S4096x4096.Idx) (q : (dotBA).contr.Idx) : ((dotBA).lhsIdx i q 0).val = (i 0).val := by
  unfold DotDims.lhsIdx
  rw [dif_neg (show ¬(0 : Fin S4096x32.rank) ∈ (dotBA).lhsBatch by decide),
    dif_pos (show (0 : Fin S4096x32.rank) ∈ (dotBA).lhsNonContracting by decide)]
  rfl
/-- The left operand's column coordinate is the contraction index. -/
theorem dot_lhs1 (i : S4096x4096.Idx) (q : (dotBA).contr.Idx) : ((dotBA).lhsIdx i q 1).val = (q ⟨0, by decide⟩).val :=
  (dotBA).lhsIdx_val_of_single rfl i q
/-- The right operand's row coordinate is the contraction index. -/
theorem dot_rhs0 (i : S4096x4096.Idx) (q : (dotBA).contr.Idx) : ((dotBA).rhsIdx i q 0).val = (q ⟨0, by decide⟩).val :=
  (dotBA).rhsIdx_val_of_single rfl i q
/-- The right operand's column coordinate is the result's column coordinate. -/
theorem dot_rhs1 (i : S4096x4096.Idx) (q : (dotBA).contr.Idx) : ((dotBA).rhsIdx i q 1).val = (i 1).val := by
  unfold DotDims.rhsIdx
  rw [dif_neg (show ¬(1 : Fin S32x4096.rank) ∈ (dotBA).rhsBatch by decide),
    dif_pos (show (1 : Fin S32x4096.rank) ∈ (dotBA).rhsNonContracting by decide)]
  rfl

/-- Entry `(o, k)` of the product `B·A` is `∑ r, B o r * A r k`: the contraction over the one shared axis, re-indexed
    from the record's one-coordinate contraction index to `r : Fin 32`. -/
theorem dot_at (B : FVec Ideal S4096x32 .f32) (A : FVec Ideal S32x4096 .f32) (o k : Fin 4096) :
    (Host.dotGeneral dotBA none B A : FVec Ideal S4096x4096 .f32) (ix2 o k)
      = ∑ r : Fin 32, B (ix2 o r) * A (ix2 r k) := by
  simp only [Host.dotGeneral]
  rw [Ideal.dotGeneral_apply, ← Equiv.sum_comp (ValueIdx.contrEquiv1 dotBA 32 rfl rfl).symm]
  refine Finset.sum_congr rfl fun r _ => ?_
  have hr := ValueIdx.contrEquiv1_symm_val dotBA 32 rfl rfl r
  have el : (dotBA).lhsIdx (ix2 o k) ((ValueIdx.contrEquiv1 dotBA 32 rfl rfl).symm r) = ix2 o r :=
    funext fun a => Fin.ext (by
      match a with
      | ⟨0, _⟩ => exact dot_lhs0 _ _
      | ⟨1, _⟩ => exact (dot_lhs1 _ _).trans hr)
  have er : (dotBA).rhsIdx (ix2 o k) ((ValueIdx.contrEquiv1 dotBA 32 rfl rfl).symm r) = ix2 r k :=
    funext fun a => Fin.ext (by
      match a with
      | ⟨0, _⟩ => exact (dot_rhs0 _ _).trans hr
      | ⟨1, _⟩ => exact dot_rhs1 _ _)
  rw [el, er]

/-! ## The sum along a row -/

/-- The sum of a 4096 × 4096 array along its second axis, started from the scalar `z`, is at `o` the scalar plus
    the sum of row `o`. -/
theorem rowSum_at (y : FVec Ideal S4096x4096 .f32) (z : FVec Ideal S_ .f32) (o : Fin 4096) :
    (Host.reduceAdd y z reducesTo_S4096x4096_S4096_d1 h_S_ : FVec Ideal S4096 .f32) (ix1 o)
      = z (Shape.Idx.first h_S_) + ∑ k : Fin 4096, y (ix2 o k) := by
  simp only [Host.reduceAdd, Ideal.hostReduceAdd_def]
  rw [Ideal.hostReduceAdd_single reducesTo_S4096x4096_S4096_d1 (by decide)]
  refine congrArg (_ + ·) (Finset.sum_congr rfl fun k _ => ?_)
  exact congrArg y (funext fun a => Fin.ext (by match a with | ⟨0, _⟩ => rfl | ⟨1, _⟩ => rfl))

/-! ## The adapted weight and its row norms, over arbitrary arrays -/

/-- The adapted weight `W + B·A` as the program forms it. -/
abbrev adapted (W : FVec Ideal S4096x4096 .f32) (A : FVec Ideal S32x4096 .f32) (B : FVec Ideal S4096x32 .f32) :
    FVec Ideal S4096x4096 .f32 :=
  addf W (Host.dotGeneral (φ₁ := .f32) (φ₂ := .f32) dotBA none B A)

/-- Entry `(o, k)` of the adapted weight is `W o k + ∑ r, B o r * A r k`. -/
theorem adapted_at (W : FVec Ideal S4096x4096 .f32) (A : FVec Ideal S32x4096 .f32) (B : FVec Ideal S4096x32 .f32)
    (o k : Fin 4096) :
    adapted W A B (ix2 o k) = Cert.Spec.adaptedRow (Cert.Spec.wRow W o) (Cert.Spec.aMat A) (Cert.Spec.bRow B o) k := by
  show W (ix2 o k) + (Host.dotGeneral (φ₁ := .f32) (φ₂ := .f32) dotBA none B A : FVec Ideal S4096x4096 .f32) (ix2 o k) = _
  rw [dot_at]
  rfl

/-- The norms of the adapted weight's rows as the program forms them: the square root of the row sums, started
    from zero, of the entrywise squares. -/
abbrev norms (W : FVec Ideal S4096x4096 .f32) (A : FVec Ideal S32x4096 .f32) (B : FVec Ideal S4096x32 .f32) :
    FVec Ideal S4096 .f32 :=
  Host.sqrt (Host.reduceAdd (mulf (adapted W A B) (adapted W A B)) (constant (F := Ideal) S_ .f32 0x00000000#32)
    reducesTo_S4096x4096_S4096_d1 h_S_)

/-- Entry `o` of the norms is the square root of `∑ k, (W o k + ∑ r, B o r * A r k)²`: the initial value is the
    extended real zero, and `0 + s = s`. -/
theorem norms_at (W : FVec Ideal S4096x4096 .f32) (A : FVec Ideal S32x4096 .f32) (B : FVec Ideal S4096x32 .f32)
    (o : Fin 4096) :
    norms W A B (ix1 o) = Cert.Spec.colNorm (Cert.Spec.wRow W o) (Cert.Spec.aMat A) (Cert.Spec.bRow B o) := by
  show Ideal.sqrt ((Host.reduceAdd (mulf (adapted W A B) (adapted W A B)) (constant (F := Ideal) S_ .f32 0x00000000#32)
    reducesTo_S4096x4096_S4096_d1 h_S_ : FVec Ideal S4096 .f32) (ix1 o)) = _
  rw [rowSum_at]
  show Ideal.sqrt (Ideal.ofBits .f32 0x00000000#32 + ∑ k : Fin 4096, adapted W A B (ix2 o k) * adapted W A B (ix2 o k)) = _
  rw [Ideal.ofBits_zero_f32, zero_add]
  unfold Cert.Spec.colNorm
  refine congrArg Ideal.sqrt (Finset.sum_congr rfl fun k _ => ?_)
  rw [adapted_at]

/-! ## The three arrays at the region's entry -/

section Entry

variable (m : (ℓ : Loc nD τ sig) → Buf (Elt Ideal) ℓ) (c : Dev nD)

/-- The first array is the flattened input, converted to the narrower format. -/
theorem v8_term :
    @Eq (FVec Ideal S8192x4096 .bf16) (V (F := Ideal) m c main_v8)
      (truncf .bf16 (shapeCast S8192x4096 (m ((c : Thread nD τ).loc main_arg0) : S4x2048x4096.Idx → EReal)
          shapeCasts_S4x2048x4096_S8192x4096) bitsLt_bf16_f32) := by
  show StableHlo.after hostOps0 (fun b => m (c, b)) (Proc.devRef .tc main_v8) = _
  after_results <;> rfl

/-- The second array is the adapted weight, converted to the narrower format. -/
theorem v9_term :
    @Eq (FVec Ideal S4096x4096 .bf16) (V (F := Ideal) m c main_v9)
      (truncf .bf16 (adapted (m ((c : Thread nD τ).loc main_arg1)) (m ((c : Thread nD τ).loc main_arg2))
        (m ((c : Thread nD τ).loc main_arg3))) bitsLt_bf16_f32) := by
  show StableHlo.after hostOps0 (fun b => m (c, b)) (Proc.devRef .tc main_v9) = _
  after_results <;> rfl

/-- The third array is the magnitudes divided by the norms, recast from 4096 numbers to one row of 4096. -/
theorem v7_term :
    @Eq (FVec Ideal S1x4096 .f32) (V (F := Ideal) m c main_v7)
      (shapeCast S1x4096
        (Host.divf (m ((c : Thread nD τ).loc main_arg4) : FVec Ideal S4096 .f32)
          (norms (m ((c : Thread nD τ).loc main_arg1)) (m ((c : Thread nD τ).loc main_arg2)) (m ((c : Thread nD τ).loc main_arg3))))
        shapeCasts_S4096_S1x4096) := by
  show StableHlo.after hostOps0 (fun b => m (c, b)) (Proc.devRef .tc main_v7) = _
  after_results <;> rfl

/-- Entry `(row, k)` of the first array is entry `(row / 2048, row % 2048, k)` of the input: the conversion is the
    identity over the extended reals and the flattening keeps row-major positions. -/
theorem v8_at (row : Fin 8192) (k : Fin 4096) :
    (V (F := Ideal) m c main_v8 : S8192x4096.Idx → EReal) (ix2 row k)
      = (m ((c : Thread nD τ).loc main_arg0) : S4x2048x4096.Idx → EReal) (ix3 ⟨row.val / 2048, by omega⟩ ⟨row.val % 2048, by omega⟩ k) :=
  (congrFun (v8_term m c) (ix2 row k)).trans (flatten_at _ _ row k)

/-- Entry `(o, k)` of the second array is entry `k` of row `o` of the adapted weight, `W o k + ∑ r, B o r * A r k`. -/
theorem v9_at (o k : Fin 4096) :
    (V (F := Ideal) m c main_v9 : S4096x4096.Idx → EReal) (ix2 o k)
      = Cert.Spec.adaptedRow (Cert.Spec.wRow (m ((c : Thread nD τ).loc main_arg1)) o) (Cert.Spec.aMat (m ((c : Thread nD τ).loc main_arg2))) (Cert.Spec.bRow (m ((c : Thread nD τ).loc main_arg3)) o) k :=
  (congrFun (v9_term m c) (ix2 o k)).trans (adapted_at _ _ _ o k)

/-- Entry `(0, o)` of the third array is the magnitude of column `o` divided by the norm of row `o` of the adapted
    weight: the recast to one row reads entry `o`, and the division acts entry by entry. -/
theorem v7_at (o : Fin 4096) :
    (V (F := Ideal) m c main_v7 : S1x4096.Idx → EReal) (ix2 (0 : Fin 1) o)
      = Ideal.div ((m ((c : Thread nD τ).loc main_arg4) : S4096.Idx → EReal) (ix1 o))
          (Cert.Spec.colNorm (Cert.Spec.wRow (m ((c : Thread nD τ).loc main_arg1)) o) (Cert.Spec.aMat (m ((c : Thread nD τ).loc main_arg2))) (Cert.Spec.bRow (m ((c : Thread nD τ).loc main_arg3)) o)) := by
  refine (congrFun (v7_term m c) (ix2 (0 : Fin 1) o)).trans ?_
  rw [shapeCast_a_1a_apply]
  show Ideal.div _ (norms _ _ _ (ix1 o)) = _
  rw [norms_at]

end Entry

end Cert.HostPrefix

end
-- ==== Proof.KernelValue.lean ====
/-
  The kernel's run read as a value, at the exact instance.

  After the region the output array holds, at (row, o), the two-halves inner product of row `row` of the re-laid
  input with row `o` of the adapted weight, times entry `o` of the scale row (module Tile). The host operations
  before the region make those three arrays from the arguments: the input re-laid from 4 × 2048 × 4096 to
  8192 × 4096 (row b·2048 + s is row (b, s)), the adapted weight W + B·A, and magnitude over column norm. The one
  host operation after the region re-lays the output back to 4 × 2048 × 4096. Joining the two halves of the sum,
  entry (b, s, o) of the result buffer is the kernel's entry of the specification.
-/
import proofs.«109327_j4243427688520_2_alg».proof.Proof.Spec
import proofs.«109327_j4243427688520_2_alg».proof.Proof.Tile
import proofs.«109327_j4243427688520_2_alg».proof.Proof.Algebra
import proofs.«109327_j4243427688520_2_alg».proof.Proof.HostPrefix
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.RunValue

open Cert.KernelIdeal Cert.KernelIdeal.Gen

variable (m : (ℓ : Loc nD τ sig) → Buf (Elt Ideal) ℓ) (ρ : Dev nD → PrngReg)

/-- The result buffer after the whole program: the one host operation after the region re-lays the region's output
    array, 8192 × 4096, as 4 × 2048 × 4096. -/
theorem tail_eq (c : Dev nD) :
    Pipeline.afterTail₀ cfgs (dats m) 0 (V0 m) [hostOps1] c main_v11
      = shapeCast S4x2048x4096 (Tile.tileArray (V m c (Pipeline.arrRef spec0 0)) (V m c (Pipeline.arrRef spec0 1)) (V m c (Pipeline.arrRef spec0 2))) shapeCasts_S8192x4096_S4x2048x4096 := by
  unfold Pipeline.afterTail₀
  show StableHlo.after hostOps1 _ (Proc.devRef .tc main_v11) = _
  after_results
  have e : (Pipeline.withArrays (cfgs 0).spec c (V0 m c) (fun w => (dats m 0 c).arrAt w (cfgs 0).N) (Proc.devRef .tc main_v10)
        : (⟨S8192x4096, .f32⟩ : BufTy).Contents (Elt Ideal))
      = Tile.tileArray (V m c (Pipeline.arrRef spec0 0)) (V m c (Pipeline.arrRef spec0 1)) (V m c (Pipeline.arrRef spec0 2)) :=
    (Pipeline.withArrays_arr spec0 launch0.win.arr_inj c _ _ 3).trans (Tile.final m c)
  exact congrArg (fun A => shapeCast S4x2048x4096 A shapeCasts_S8192x4096_S4x2048x4096) e

/-- Over any three arrays holding what the host operations before the region compute — the input re-laid as
    8192 rows, the adapted weight, and magnitude over column norm as one row — entry (b·2048 + s, o) of the tile array
    is the kernel's entry of the specification. The two halves of the inner product join into one sum. -/
theorem entry_of_arrays (X8 : (⟨S8192x4096, .bf16⟩ : BufTy).Contents (Elt Ideal)) (W9 : (⟨S4096x4096, .bf16⟩ : BufTy).Contents (Elt Ideal))
    (S7 : (⟨S1x4096, .f32⟩ : BufTy).Contents (Elt Ideal))
    (x : (⟨S4x2048x4096, .f32⟩ : BufTy).Contents (Elt Ideal)) (W : (⟨S4096x4096, .f32⟩ : BufTy).Contents (Elt Ideal))
    (A : (⟨S32x4096, .f32⟩ : BufTy).Contents (Elt Ideal)) (B : (⟨S4096x32, .f32⟩ : BufTy).Contents (Elt Ideal))
    (mag : (⟨S4096, .f32⟩ : BufTy).Contents (Elt Ideal))
    (h8 : ∀ (row : Fin 8192) (k : Fin 4096), X8 (ix2 row k) = x (ix3 (⟨row.val / 2048, by omega⟩ : Fin 4) (⟨row.val % 2048, by omega⟩ : Fin 2048) k))
    (h9 : ∀ o k : Fin 4096, W9 (ix2 o k) = Cert.Spec.adaptedRow (Cert.Spec.wRow W o) (Cert.Spec.aMat A) (Cert.Spec.bRow B o) k)
    (h7 : ∀ o : Fin 4096, S7 (ix2 (0 : Fin 1) o) = Ideal.div (mag (ix1 o)) (Cert.Spec.colNorm (Cert.Spec.wRow W o) (Cert.Spec.aMat A) (Cert.Spec.bRow B o)))
    (b : Fin 4) (s : Fin 2048) (o : Fin 4096) :
    Tile.entry X8 W9 S7 (⟨b.val * 2048 + s.val, by omega⟩ : Fin 8192) o
      = Cert.Spec.kernelEntry (Cert.Spec.xRow x b s) (Cert.Spec.wRow W o) (Cert.Spec.aMat A) (Cert.Spec.bRow B o) (mag (ix1 o)) := by
  rw [← Cert.Algebra.halves_eq]
  have hx : ∀ k : Fin 4096, X8 (ix2 (⟨b.val * 2048 + s.val, by omega⟩ : Fin 8192) k) = Cert.Spec.xRow x b s k := by
    intro k
    rw [h8]
    have hb : (⟨(b.val * 2048 + s.val) / 2048, by omega⟩ : Fin 4) = b := Fin.ext (by show (b.val * 2048 + s.val) / 2048 = b.val; omega)
    have hs : (⟨(b.val * 2048 + s.val) % 2048, by omega⟩ : Fin 2048) = s := Fin.ext (by show (b.val * 2048 + s.val) % 2048 = s.val; omega)
    show x (ix3 (⟨(b.val * 2048 + s.val) / 2048, by omega⟩ : Fin 4) (⟨(b.val * 2048 + s.val) % 2048, by omega⟩ : Fin 2048) k) = x (ix3 b s k)
    rw [hb, hs]
  unfold Tile.entry Cert.Spec.kernelEntryHalves
  simp only [hx, h9, h7]

/-- The re-laying after the region: entry (b, s, o) of a 4 × 2048 × 4096 array cast from 8192 × 4096 is entry
    (b·2048 + s, o) of the latter: the same row-major position. -/
theorem relay_apply (Y : (⟨S8192x4096, .f32⟩ : BufTy).Contents (Elt Ideal)) (b : Fin 4) (s : Fin 2048) (o : Fin 4096) :
    shapeCast S4x2048x4096 Y shapeCasts_S8192x4096_S4x2048x4096 (ix3 b s o) = Y (ix2 (⟨b.val * 2048 + s.val, by omega⟩ : Fin 8192) o) :=
  shapeCast_apply Y _ _ _ (by
    rw [Shape.rowMajor_val_two, Shape.rowMajor_val_three]
    show (b.val * 2048 + s.val) * 4096 + o.val = (b.val * 2048 + s.val) * 4096 + o.val
    rfl)

/-- The result buffer's array is the specification's result of the five argument arrays. -/
theorem resultArray_eq (c : Dev nD) :
    shapeCast S4x2048x4096 (Tile.tileArray (V m c (Pipeline.arrRef spec0 0)) (V m c (Pipeline.arrRef spec0 1)) (V m c (Pipeline.arrRef spec0 2))) shapeCasts_S8192x4096_S4x2048x4096
      = Cert.Spec.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  funext j
  obtain ⟨b, s, o, rfl⟩ : ∃ (b : Fin 4) (s : Fin 2048) (o : Fin 4096), j = ix3 b s o := ⟨j 0, j 1, j 2, eq_ix3 j⟩
  rw [Cert.Spec.result_ix3, relay_apply, Tile.tileArray_ix2]
  exact entry_of_arrays _ _ _ _ _ _ _ _ (fun row k => Cert.HostPrefix.v8_at m c row k) (fun o k => Cert.HostPrefix.v9_at m c o k)
    (fun o => Cert.HostPrefix.v7_at m c o) b s o

/-- The kernel's run, read: every weakly fair execution ends with the result buffer at the specification's result of
    the argument arrays, and the five argument arrays as they were. -/
theorem run : θ_run defs (onTc (τ := τ) (main (F := Ideal))) ⟨m, fun _ => 0, ρ⟩ fun r => ∀ c : Dev nD,
      r.2.mem ((c.tc : Thread nD τ).loc main_v11)
        = Cert.Spec.result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v11 (Pipeline.mem_restRefs_of main_v11 (by decide) (by decide))).trans ((tail_eq m c).trans (resultArray_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RunValue

end
-- ==== Proof.lean ====
/-
  The kernel forms, for row (b, s) of the input and column o,

      (x[b, s, ·] · (W + B·A)[o, ·]) · (magnitude[o] / ‖(W + B·A)[o, ·]‖),

  the inner product accumulated in two halves of 2048 terms over the last grid axis and scaled when the second half
  is in; the reference forms

      ((x[b, s, ·] · W[o, ·] + ∑ r, (x[b, s, ·] · A[r, ·]) · B[o, r]) / ‖(W + B·A)[o, ·]‖) · magnitude[o].

  Over the extended reals the two agree when every input is finite and every column norm is positive: the inner
  products are then real numbers, equal by distributing the product over the sum W + B·A and exchanging the two
  summations, and for a real S, a real magnitude and a norm that is positive (real, or +∞) the two ways of scaling
  agree. At a zero norm they do not (the reference divides 0 by 0), which is why the precondition asks for positive
  norms.

  The frames of the two kernel programs are the generated ones; the reference's frame is its generated run with the
  result dropped; the idealization rewrote nothing. The kernel's value is read off its generated frame run (modules
  Pieces, Payload, Tile, HostPrefix, KernelValue), the reference's off its generated run and stages (module RefVal),
  the precondition is decoded in PreFacts, and the algebra is in Algebra over the definitions of Spec.
-/
import proofs.«109327_j4243427688520_2_alg».proof.Defs
import proofs.«109327_j4243427688520_2_alg».proof.Proof.Gen.Kernel
import proofs.«109327_j4243427688520_2_alg».proof.Proof.Gen.Kernel.Skeleton
import proofs.«109327_j4243427688520_2_alg».proof.Proof.Gen.Kernel.Launch
import proofs.«109327_j4243427688520_2_alg».proof.Proof.Gen.Kernel.Points
import proofs.«109327_j4243427688520_2_alg».proof.Proof.Gen.Kernel.Frame
import proofs.«109327_j4243427688520_2_alg».proof.Proof.Gen.KernelIdeal
import proofs.«109327_j4243427688520_2_alg».proof.Proof.Gen.KernelIdeal.Skeleton
import proofs.«109327_j4243427688520_2_alg».proof.Proof.Gen.KernelIdeal.Launch
import proofs.«109327_j4243427688520_2_alg».proof.Proof.Gen.KernelIdeal.Points
import proofs.«109327_j4243427688520_2_alg».proof.Proof.Gen.KernelIdeal.Frame
import proofs.«109327_j4243427688520_2_alg».proof.Proof.Gen.ReferenceIdeal
import proofs.«109327_j4243427688520_2_alg».proof.Proof.Gen.Pre_finite_inputs
import proofs.«109327_j4243427688520_2_alg».proof.Proof.Gen.ReferenceIdeal.Read
import proofs.«109327_j4243427688520_2_alg».proof.Proof.Spec
import proofs.«109327_j4243427688520_2_alg».proof.Proof.Algebra
import proofs.«109327_j4243427688520_2_alg».proof.Proof.PreFacts
import proofs.«109327_j4243427688520_2_alg».proof.Proof.RefVal
import proofs.«109327_j4243427688520_2_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result buffer at the specification's result of the argument arrays: the kernel by
    its run read as a value, the reference because each of its entries is the reference's entry of the
    specification, which under finite inputs and positive column norms is the kernel's entry. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v14_eq (F := Ideal) _ _ _ _ _).trans ?_
  obtain ⟨hx, hW, hA, hB, hmag, hpos⟩ := Cert.PreFacts.pre_facts _ _ _ _ _ (hpre c)
  funext j
  obtain ⟨b, s, o, rfl⟩ : ∃ (b : Fin 4) (s : Fin 2048) (o : Fin 4096), j = ix3 b s o := ⟨j 0, j 1, j 2, eq_ix3 j⟩
  rw [Cert.RefVal.ref_entry]
  refine Eq.trans ?_ (Cert.Spec.result_ix3 _ _ _ _ _ b s o).symm
  exact (Cert.Algebra.entries_agree _ _ _ _ _ (fun k => hx _) (fun k => hW _) (fun r k => hA _) (fun r => hB _) (hmag _) (hpos o)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
